-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 84
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000x256, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .bf16⟩
  | .hbm, ⟨54, _⟩ => ⟨S800000x256, .f32⟩
  | .hbm, ⟨55, _⟩ => ⟨S800000x256, .f32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .bf16⟩
  | .hbm, ⟨73, _⟩ => ⟨S800000x256, .f32⟩
  | .hbm, ⟨74, _⟩ => ⟨S800000x256, .f32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S256x128, .f32⟩
  | .local _ .vmem, ⟨17, _⟩ => ⟨S1x128, .f32⟩
  | .local _ .vmem, ⟨18, _⟩ => ⟨S256x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61_0 : Ref sig .tc := ⟨.hbm, 82, rfl⟩
abbrev main_v61_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  bitsLt_bf16_f32 : FTy.bits .bf16 < FTy.bits .f32
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v42) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v61_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 177
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x256, .f32⟩
  | 51 => ⟨S800000x1, .f32⟩
  | 52 => ⟨S800000x256, .f32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S50000, .f32⟩
  | 59 => ⟨S50000x1, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S800000, .f32⟩
  | 126 => ⟨S_, .f32⟩
  | 127 => ⟨S50000, .f32⟩
  | _ => ⟨S50000x256, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_25 : Ref sig .tc := ⟨.hbm, 153, rfl⟩
abbrev main_v116 : Ref sig .tc := ⟨.hbm, 154, rfl⟩
abbrev main_v117 : Ref sig .tc := ⟨.hbm, 155, rfl⟩
abbrev main_c_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibSegmentSum.lean ====
/-
  A float scatter-add whose scatter indices name ROWS, read at an index.

  `jax.ops.segment_sum(data, ids, num_segments = N)` lowers to a `stablehlo.scatter` with an `add` body over
  scatter indices of shape `[E, 1]`: update row `e` is added to operand row `ids[e]`, read signed, and is dropped
  when that row is outside `[0, N)`. Two layouts occur: updates `[E, D]` into an operand `[N, D]` (a row of `D`
  entries per update: the window axis is axis 1) and updates `[E]` into an operand `[N]` (one entry per update, no
  window axis). At the exact instance both are, entry by entry, the operand plus the sum of the updates over the SAME
  set of edges `{e | ids[e] = n}` (`rows_apply`, `entries_apply`), so a segment sum of differences `g e k - w e`
  with every `w e` real is the difference of the two segment sums (`sum_sub_coe`): on the extended reals the
  subtraction of a REAL distributes over a finite sum, which it does not for infinite `w`.
-/
import Idealize.ShloMosaic.PureOps.Ideal
import Idealize.ShloMosaic.Lib.ValueIdx

noncomputable section

open scoped BigOperators

namespace Cert.SegmentSum

open Idealize.ShloMosaic Idealize.ShloMosaic.ValueIdx

/-! ## The two layouts' dimension numbers -/

/-- Updates `[E, D]` into an operand `[N, D]`, one scatter index per update row. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Updates `[E]` into an operand `[N]`, one scatter index per update entry. -/
abbrev entriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment edge `e` is sent to: its scatter index, read signed. -/
def seg {E w : Nat} (idx : IVec ⟨2, ![E, 1]⟩ w) (e : Fin E) : Int := (idx (ix2 e (0 : Fin 1))).toInt

section Rows
variable {N E D w : Nat} (wf : ScatterDims.WF ⟨2, ![N, D]⟩ ⟨2, ![E, 1]⟩ ⟨2, ![E, D]⟩ [1] [0] [0] 1)
variable (idx : IVec ⟨2, ![E, 1]⟩ w) (e : Fin E) (q : Fin D)

theorem rows_start0 : (rowsDims N E D wf).start (ix2 e q) idx 0 = seg idx e := by
  unfold ScatterDims.start
  rw [dif_pos (show (0 : Fin 2) ∈ (rowsDims N E D wf).scatterDimsToOperandDims from List.mem_singleton.mpr rfl)]
  have hsi : (rowsDims N E D wf).siIdx (ix2 e q) ⟨List.idxOf (0 : Fin 2) (rowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_start1 : (rowsDims N E D wf).start (ix2 e q) idx 1 = 0 := by
  unfold ScatterDims.start
  rw [dif_neg (show ¬ (1 : Fin 2) ∈ (rowsDims N E D wf).scatterDimsToOperandDims by
    show ¬ (1 : Fin 2) ∈ [(0 : Fin 2)]; decide)]

theorem rows_window0 : (rowsDims N E D wf).window (ix2 e q) 0 = 0 := by
  unfold ScatterDims.window
  rw [dif_neg (show ¬ (0 : Fin 2) ∈ (rowsDims N E D wf).sKept by
    show ¬ (0 : Fin 2) ∈ (List.finRange 2).filter (fun a => a ∉ [(0 : Fin 2)]); decide)]

theorem rows_window1 : (rowsDims N E D wf).window (ix2 e q) 1 = q.val := by
  unfold ScatterDims.window
  rw [dif_pos (show (1 : Fin 2) ∈ (rowsDims N E D wf).sKept by
    show (1 : Fin 2) ∈ (List.finRange 2).filter (fun a => a ∉ [(0 : Fin 2)]); decide)]
  rfl

/-- Update entry `(e, q)` lands on operand entry `(n, k)` exactly when edge `e`'s segment is `n` and `q = k`. -/
theorem rows_resultIdx_iff (n : Fin N) (k : Fin D) :
    (rowsDims N E D wf).resultIdx? (ix2 e q) idx = some (ix2 n k) ↔ seg idx e = (n.val : Int) ∧ q = k := by
  have s0 := rows_start0 wf idx e q
  have s1 := rows_start1 wf idx e q
  have w0 := rows_window0 wf e q
  have w1 := rows_window1 wf e q
  unfold ScatterDims.resultIdx?
  split_ifs with h
  · rw [Option.some.injEq]
    constructor
    · intro h'
      have h0 := congrArg Fin.val (congrFun h' 0)
      have h1 := congrArg Fin.val (congrFun h' 1)
      have p0 := (h 0).1
      simp only [s0, w0] at h0 p0
      simp only [s1, w1] at h1
      refine ⟨?_, Fin.ext ?_⟩
      · have : ((seg idx e + ((0 : Nat) : Int)).toNat : Nat) = n.val := h0
        omega
      · have : (((0 : Int) + (q.val : Int)).toNat : Nat) = k.val := h1
        omega
    · rintro ⟨hs, rfl⟩
      funext a; refine Fin.ext ?_
      match a with
      | ⟨0, _⟩ =>
        show ((rowsDims N E D wf).start (ix2 e q) idx 0 + ((rowsDims N E D wf).window (ix2 e q) 0 : Int)).toNat = n.val
        rw [s0, w0, hs]; omega
      | ⟨1, _⟩ =>
        show ((rowsDims N E D wf).start (ix2 e q) idx 1 + ((rowsDims N E D wf).window (ix2 e q) 1 : Int)).toNat = q.val
        rw [s1, w1]; omega
  · constructor
    · intro h'; exact absurd h' (by simp)
    · rintro ⟨hs, rfl⟩
      exfalso; apply h
      intro a
      match a with
      | ⟨0, _⟩ =>
        show 0 ≤ (rowsDims N E D wf).start (ix2 e q) idx 0 + ((rowsDims N E D wf).window (ix2 e q) 0 : Int) ∧
          (rowsDims N E D wf).start (ix2 e q) idx 0 + ((rowsDims N E D wf).window (ix2 e q) 0 : Int) < (N : Int)
        rw [s0, w0, hs]; have := n.isLt; omega
      | ⟨1, _⟩ =>
        show 0 ≤ (rowsDims N E D wf).start (ix2 e q) idx 1 + ((rowsDims N E D wf).window (ix2 e q) 1 : Int) ∧
          (rowsDims N E D wf).start (ix2 e q) idx 1 + ((rowsDims N E D wf).window (ix2 e q) 1 : Int) < (D : Int)
        rw [s1, w1]; have := q.isLt; omega

end Rows

section Entries
variable {N E w : Nat} (wf : ScatterDims.WF ⟨1, ![N]⟩ ⟨2, ![E, 1]⟩ ⟨1, ![E]⟩ [] [0] [0] 1)
variable (idx : IVec ⟨2, ![E, 1]⟩ w) (e : Fin E)

theorem entries_start0 : (entriesDims N E wf).start (ix1 e) idx 0 = seg idx e := by
  unfold ScatterDims.start
  rw [dif_pos (show (0 : Fin 1) ∈ (entriesDims N E wf).scatterDimsToOperandDims from List.mem_singleton.mpr rfl)]
  have hsi : (entriesDims N E wf).siIdx (ix1 e) ⟨List.idxOf (0 : Fin 1) (entriesDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem entries_window0 : (entriesDims N E wf).window (ix1 e) 0 = 0 := by
  unfold ScatterDims.window
  rw [dif_neg (show ¬ (0 : Fin 1) ∈ (entriesDims N E wf).sKept by
    show ¬ (0 : Fin 1) ∈ (List.finRange 1).filter (fun a => a ∉ [(0 : Fin 1)]); decide)]

/-- Update entry `e` lands on operand entry `n` exactly when edge `e`'s segment is `n`. -/
theorem entries_resultIdx_iff (n : Fin N) :
    (entriesDims N E wf).resultIdx? (ix1 e) idx = some (ix1 n) ↔ seg idx e = (n.val : Int) := by
  have s0 := entries_start0 wf idx e
  have w0 := entries_window0 wf e
  unfold ScatterDims.resultIdx?
  split_ifs with h
  · rw [Option.some.injEq]
    constructor
    · intro h'
      have h0 := congrArg Fin.val (congrFun h' 0)
      have p0 := (h 0).1
      simp only [s0, w0] at h0 p0
      have : ((seg idx e + ((0 : Nat) : Int)).toNat : Nat) = n.val := h0
      omega
    · intro hs
      funext a; refine Fin.ext ?_
      match a with
      | ⟨0, _⟩ =>
        show ((entriesDims N E wf).start (ix1 e) idx 0 + ((entriesDims N E wf).window (ix1 e) 0 : Int)).toNat = n.val
        rw [s0, w0, hs]; omega
  · constructor
    · intro h'; exact absurd h' (by simp)
    · intro hs
      exfalso; apply h
      intro a
      match a with
      | ⟨0, _⟩ =>
        show 0 ≤ (entriesDims N E wf).start (ix1 e) idx 0 + ((entriesDims N E wf).window (ix1 e) 0 : Int) ∧
          (entriesDims N E wf).start (ix1 e) idx 0 + ((entriesDims N E wf).window (ix1 e) 0 : Int) < (N : Int)
        rw [s0, w0, hs]; have := n.isLt; omega

end Entries

/-! ## The exact scatter-add at an entry -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE ROWS LAYOUT AT `(n, k)`: the operand's entry plus the sum, over the edges whose segment is `n`, of column
    `k` of their update rows. -/
theorem rows_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd (rowsDims N E D wf) x idx upd (ix2 n k)
      = x (ix2 n k) + ∑ e ∈ Finset.univ.filter (fun e : Fin E => seg idx e = (n.val : Int)), upd (ix2 e k) := by
  unfold Ideal.hostScatterAdd
  congr 1
  rw [Finset.sum_filter, Finset.sum_filter, sum_idx2]
  refine Finset.sum_congr rfl fun e _ => ?_
  by_cases hs : seg idx e = (n.val : Int)
  · rw [if_pos hs, Finset.sum_eq_single k]
    · rw [if_pos ((rows_resultIdx_iff wf idx e k n k).2 ⟨hs, rfl⟩)]
    · intro q _ hq
      rw [if_neg (fun h => hq ((rows_resultIdx_iff wf idx e q n k).1 h).2)]
    · intro h; exact absurd (Finset.mem_univ k) h
  · rw [if_neg hs]
    refine Finset.sum_eq_zero fun q _ => ?_
    rw [if_neg (fun h => hs ((rows_resultIdx_iff wf idx e q n k).1 h).1)]

/-- THE ENTRIES LAYOUT AT `n`: the operand's entry plus the sum of the updates of the edges whose segment is `n`. -/
theorem entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (entriesDims N E wf) x idx upd (ix1 n)
      = x (ix1 n) + ∑ e ∈ Finset.univ.filter (fun e : Fin E => seg idx e = (n.val : Int)), upd (ix1 e) := by
  unfold Ideal.hostScatterAdd
  congr 1
  rw [Finset.sum_filter, Finset.sum_filter, ← Equiv.sum_comp (idxEquiv1 (n := E)).symm]
  refine Finset.sum_congr rfl fun e _ => ?_
  show (if (entriesDims N E wf).resultIdx? (ix1 e) idx = some (ix1 n) then upd (ix1 e) else 0) = _
  by_cases hs : seg idx e = (n.val : Int)
  · rw [if_pos hs, if_pos ((entries_resultIdx_iff wf idx e n).2 hs)]
  · rw [if_neg hs, if_neg (fun h => hs ((entries_resultIdx_iff wf idx e n).1 h))]

/-! ## Subtracting reals under a finite sum -/

/-- On the extended reals, a finite sum of differences `g e - w e` with every `w e` REAL is the difference of the
    sums. (With infinite `w` it is false: `(0 - ⊥) + (0 - ⊤) = ⊥` while `(0 + 0) - (⊥ + ⊤) = ⊤`.) -/
theorem sum_sub_coe {ι : Type*} (s : Finset ι) (g : ι → EReal) (w : ι → ℝ) :
    ∑ e ∈ s, (g e - (w e : EReal)) = ∑ e ∈ s, g e - ∑ e ∈ s, (w e : EReal) := by
  classical
  have hw : ∀ s : Finset ι, ∑ e ∈ s, (w e : EReal) = ((∑ e ∈ s, w e : ℝ) : EReal) := by
    intro s
    induction s using Finset.induction_on with
    | empty => simp
    | insert a s ha ih => rw [Finset.sum_insert ha, Finset.sum_insert ha, ih, EReal.coe_add]
  rw [hw s]
  clear hw
  induction s using Finset.induction_on with
  | empty => simp
  | insert a s ha ih =>
    rw [Finset.sum_insert ha, Finset.sum_insert ha, Finset.sum_insert ha, ih, EReal.coe_add,
      sub_eq_add_neg, sub_eq_add_neg, sub_eq_add_neg, ← EReal.coe_add, ← EReal.coe_neg, ← EReal.coe_neg, ← EReal.coe_neg,
      neg_add, EReal.coe_add, add_add_add_comm]

/-! ## The segment sum of differences -/

/-- SUBTRACTING A REAL PER-EDGE WEIGHT COMMUTES WITH THE SEGMENT SUM. Scatter-adding, into zeros, update rows
    `u e k = u' e k − r e` (`r e` real) gives at `(n, k)` the scatter-add of the rows `u'` at `(n, k)` less the
    scatter-add of the weights `r` at `n`: all three sums run over the edges whose segment is `n`. -/
theorem segment_sum_sub {N E D w : Nat}
    (wf2 : ScatterDims.WF ⟨2, ![N, D]⟩ ⟨2, ![E, 1]⟩ ⟨2, ![E, D]⟩ [1] [0] [0] 1)
    (wf1 : ScatterDims.WF ⟨1, ![N]⟩ ⟨2, ![E, 1]⟩ ⟨1, ![E]⟩ [] [0] [0] 1)
    (z z' : (⟨2, ![N, D]⟩ : Shape).Idx → EReal) (z₁ : (⟨1, ![N]⟩ : Shape).Idx → EReal) (idx : IVec ⟨2, ![E, 1]⟩ w)
    (u u' : (⟨2, ![E, D]⟩ : Shape).Idx → EReal) (v : (⟨1, ![E]⟩ : Shape).Idx → EReal) (r : Fin E → ℝ)
    (n : Fin N) (k : Fin D)
    (hz : z (ix2 n k) = 0) (hz' : z' (ix2 n k) = 0) (hz₁ : z₁ (ix1 n) = 0)
    (hv : ∀ e, v (ix1 e) = (r e : EReal)) (hu : ∀ e, u (ix2 e k) = u' (ix2 e k) - (r e : EReal)) :
    Ideal.hostScatterAdd (rowsDims N E D wf2) z idx u (ix2 n k)
      = Ideal.hostScatterAdd (rowsDims N E D wf2) z' idx u' (ix2 n k)
        - Ideal.hostScatterAdd (entriesDims N E wf1) z₁ idx v (ix1 n) := by
  rw [rows_apply, rows_apply, entries_apply, hz, hz', hz₁, zero_add, zero_add, zero_add,
    Finset.sum_congr rfl (fun e _ => hu e), Finset.sum_congr rfl (fun e _ => hv e)]
  exact sum_sub_coe _ _ _

end Cert.SegmentSum

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.Graph.lean ====
/-
  The graph quantities both programs compute from the edge list, named once.

  The edge list is an integer array [2, 800000]: row 0 the sources, row 1 the targets. Both programs gather with
  the source (and target) number wrapped once when negative and then clamped into the table, and both scatter-add
  with the raw target number, dropping an edge whose target is outside [0, 50000). So for a node n the edges that
  reach it are those whose raw target number is n (`inSeg`), the row an edge reads is its wrapped, clamped source
  (`srcRow`), a node's weight is the reciprocal square root of one plus the number of edges reaching it (`dinv`),
  and an edge's weight is the product of the weights of its two ends (`nrm`).
  They are named here over the reference's stage functions; the kernel's own spellings are these by unfolding.
-/
import proofs.«159679_j13511967113592_2_alg».proof.Proof.Gen.ReferenceIdeal.Read
import proofs.«159679_j13511967113592_2_alg».proof.Proof.LibSegmentSum
import proofs.«159679_j13511967113592_2_alg».proof.Proof.LibGatherRows

noncomputable section

namespace Cert.Graph

open Cert.ReferenceIdeal Cert.ReferenceIdeal.Read Idealize.ShloMosaic Idealize.ShloMosaic.ValueIdx

/-- The edge list's type. -/
abbrev Edges := (⟨S2x800000, .i32⟩ : BufTy).Contents (Elt Ideal)

/-- The scatter index column: the raw target number of every edge. -/
def dstIx (ei : Edges) : IVec ⟨2, ![800000, 1]⟩ 32 := val_main_v38 (F := Ideal) ei

/-- The gather index column: the source number of every edge, wrapped once when negative. -/
def srcIx (ei : Edges) : IVec ⟨2, ![800000, 1]⟩ 32 := val_main_v32 (F := Ideal) ei

/-- The edges that reach node `n`. -/
def inSeg (ei : Edges) (n : Fin 50000) : Finset (Fin 800000) :=
  Finset.univ.filter (fun e : Fin 800000 => Cert.SegmentSum.seg (dstIx ei) e = (n.val : Int))

/-- The table row edge `e` reads. -/
def srcRow (ei : Edges) (e : Fin 800000) : Fin 50000 :=
  Cert.GatherRows.rowOf (by norm_num : 0 < 50000) (srcIx ei) e

/-- The weight of node `n`: the reciprocal square root of one plus the number of edges reaching it. -/
def dinv (ei : Edges) (n : Fin 50000) : EReal := val_main_v11 (F := Ideal) ei (ix1 n)

/-- The weight of edge `e`: the product of the weights of its two ends. -/
def nrm (ei : Edges) (e : Fin 800000) : EReal := val_main_v26 (F := Ideal) ei (ix1 e)

end Cert.Graph

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Reals.lean ====
/-
  The real-valuedness facts the algebra needs, read at the ideal values, where a float is an extended real.

  * Every entry of the seven float arguments is a real number when the printed test "every entry has absolute value
    below +∞" came out true on each of them (`inputs_real`).
  * A node's in-degree count, computed as a scatter-add of ones into zeros, is the number of edges that reach the node,
    a natural number read as a real (`deg_apply`); one more than it is a real that is at least one (`deg1_apply`),
    and the reciprocal square root of a positive real is a real, so every node's weight is a real (`dinv_real`).
  * An edge's weight is the product of two node weights, each read from the table of node weights at some row, so it
    is a real (`nrm_real`).
  * A finite sum of reals read as extended reals is the real sum read as an extended real (`coe_sum`).
-/
import proofs.«159679_j13511967113592_2_alg».proof.Proof.Graph
import proofs.«159679_j13511967113592_2_alg».proof.Proof.LibFiniteEntry
import proofs.«159679_j13511967113592_2_alg».proof.Pre_finite_inputs
import Idealize.ShloMosaic.Lib.ReduceAll
import Idealize.ShloMosaic.Lib.IdealHost

noncomputable section

open scoped BigOperators

namespace Cert.Reals

open Cert.ReferenceIdeal Cert.ReferenceIdeal.Read Idealize.ShloMosaic Idealize.ShloMosaic.ValueIdx

/-! ## General facts -/

/-- A finite sum of reals read as extended reals is the real sum read as an extended real. -/
theorem coe_sum {ι : Type*} (s : Finset ι) (w : ι → ℝ) :
    ∑ e ∈ s, (w e : EReal) = ((∑ e ∈ s, w e : ℝ) : EReal) := by
  classical
  induction s using Finset.induction_on with
  | empty => simp
  | insert a s ha ih => rw [Finset.sum_insert ha, Finset.sum_insert ha, ih, EReal.coe_add]

/-- A sum of ones over a finite set is the set's size. -/
theorem sum_one_card {ι : Type*} (s : Finset ι) :
    ∑ _e ∈ s, ((1 : ℝ) : EReal) = ((s.card : ℝ) : EReal) := by
  rw [coe_sum, Finset.sum_const, nsmul_eq_mul, mul_one]

/-- The reciprocal square root of a positive real is a real: the reciprocal of its square root. -/
theorem rsqrt_pos (r : ℝ) (h : 0 < r) : Ideal.rsqrt (r : EReal) = (((Real.sqrt r)⁻¹ : ℝ) : EReal) := by
  rw [Ideal.rsqrt_coe, if_neg (not_lt.mpr h.le), if_neg h.ne']

/-- The f32 pattern 0x3F800000 is the real one. -/
theorem ofBits_one_real : Ideal.ofBits .f32 0x3F800000#32 = ((1 : ℝ) : EReal) := by
  rw [Ideal.ofBits_one_f32]; norm_cast

/-! ## The node weights -/

/-- The side condition of the degree count's scatter-add, over literal shapes. -/
theorem scatter_wf : ScatterDims.WF ⟨1, ![50000]⟩ ⟨2, ![800000, 1]⟩ ⟨1, ![800000]⟩ [] [0] [0] 1 :=
  Facts₀.scatter_S50000_S800000x1_S800000_n_0_0_1_wf

/-- The printed dimension numbers of the degree count's scatter-add are the one-entry-per-update layout. -/
theorem scatter_eq : scatter_S50000_S800000x1_S800000_n_0_0_1 = Cert.SegmentSum.entriesDims 50000 800000 scatter_wf := rfl

/-- The edges whose raw target number, as the degree count reads it, is `n`. -/
def degSeg (ei : Cert.Graph.Edges) (n : Fin 50000) : Finset (Fin 800000) :=
  Finset.univ.filter (fun e : Fin 800000 => Cert.SegmentSum.seg (val_main_v7 (F := Ideal) ei) e = (n.val : Int))

/-- The degree count at node `n` is the number of edges whose target is `n`. -/
theorem deg_apply (ei : Cert.Graph.Edges) (n : Fin 50000) :
    val_main_v8 (F := Ideal) ei (ix1 n) = (((degSeg ei n).card : ℝ) : EReal) := by
  have h : val_main_v8 (F := Ideal) ei
      = Ideal.hostScatterAdd (Cert.SegmentSum.entriesDims 50000 800000 scatter_wf)
          (val_main_v6 (F := Ideal)) (val_main_v7 (F := Ideal) ei) (val_main_v5 (F := Ideal)) := rfl
  rw [h, Cert.SegmentSum.entries_apply, val_main_v6_apply, val_main_cst_0_apply, Ideal.ofBits_def, Ideal.ofBits_zero_f32,
    zero_add]
  have hu : ∀ e : Fin 800000, val_main_v5 (F := Ideal) (ix1 e) = ((1 : ℝ) : EReal) := by
    intro e
    rw [val_main_v5_apply, val_main_cst_apply, Ideal.ofBits_def, ofBits_one_real]
  rw [Finset.sum_congr rfl (fun e _ => hu e)]
  exact sum_one_card _

/-- One plus the degree count at node `n`. -/
theorem deg1_apply (ei : Cert.Graph.Edges) (n : Fin 50000) :
    val_main_v10 (F := Ideal) ei (ix1 n) = ((((degSeg ei n).card : ℝ) + 1 : ℝ) : EReal) := by
  rw [val_main_v10_apply, Ideal.addf_def, deg_apply, val_main_v9_apply, val_main_cst_1_apply, Ideal.ofBits_def,
    ofBits_one_real, ← EReal.coe_add]

/-- A node's weight is the reciprocal of the square root of one plus the number of edges that reach it. -/
theorem dinv_apply (ei : Cert.Graph.Edges) (n : Fin 50000) :
    Cert.Graph.dinv ei n = (((Real.sqrt (((degSeg ei n).card : ℝ) + 1))⁻¹ : ℝ) : EReal) := by
  unfold Cert.Graph.dinv
  rw [val_main_v11_apply, Ideal.hostUnary_rsqrt_def, deg1_apply]
  exact rsqrt_pos _ (by positivity)

/-- Every node's weight is a real. -/
theorem dinv_real (ei : Cert.Graph.Edges) (n : Fin 50000) : ∃ r : ℝ, Cert.Graph.dinv ei n = (r : EReal) :=
  ⟨_, dinv_apply ei n⟩

/-! ## The edge weights -/

/-- Every entry of the table of node weights is a real. -/
theorem v11_real (ei : Cert.Graph.Edges) (j : S50000.Idx) : ∃ r : ℝ, val_main_v11 (F := Ideal) ei j = (r : EReal) := by
  rw [eq_ix1 j]
  exact dinv_real ei (j 0)

/-- Every edge's weight is a real: the product of two entries of the table of node weights. -/
theorem nrm_real (ei : Cert.Graph.Edges) (e : Fin 800000) : ∃ r : ℝ, Cert.Graph.nrm ei e = (r : EReal) := by
  unfold Cert.Graph.nrm
  rw [val_main_v26_apply, Ideal.mulf_def]
  obtain ⟨p, hp⟩ := v11_real ei
    (gather_S50000_S800000x1_S800000_n_0_n_n_0_1_1.operandIdx (ix1 e) (val_main_v17 (F := Ideal) ei))
  obtain ⟨q, hq⟩ := v11_real ei
    (gather_S50000_S800000x1_S800000_n_0_n_n_0_1_1.operandIdx (ix1 e) (val_main_v24 (F := Ideal) ei))
  have h18 : val_main_v18 (F := Ideal) ei (ix1 e) = (p : EReal) := hp
  have h25 : val_main_v25 (F := Ideal) ei (ix1 e) = (q : EReal) := hq
  rw [h18, h25, ← EReal.coe_mul]
  exact ⟨p * q, rfl⟩

/-! ## The float arguments -/

/-- The index set of a rank-0 array has one element. -/
instance : Subsingleton Cert.Pre_finite_inputs.S_.Idx := ⟨fun _ _ => funext fun d => d.elim0⟩

/-- An entrywise conjunction of two one-bit arrays that is 1 at an index: both are 1 there. -/
theorem andi_vec_eq_one {s : Shape} {x y : IVec s 1} {i : s.Idx} (h : andi x y i = 1#1) : x i = 1#1 ∧ y i = 1#1 :=
  IntOp.andi_eq_one.1 h

/-- One conjunct of the test: the conjunction over every entry of `|a| < +∞` came out true, so every entry of `a`
    is a real. -/
theorem all_real {s : Shape} {axes : List (Fin s.rank)} (a : FVec Ideal s .f32)
    (hb : (⟨0, ![]⟩ : Shape).BroadcastsInDim s ![]) (hr : s.ReducesTo axes Cert.Pre_finite_inputs.S_)
    (hu : 0 < Cert.Pre_finite_inputs.S_.numel) (init : IVec Cert.Pre_finite_inputs.S_ 1)
    (e : Host.reduce IntOp.andi
        (cmpf .olt (Host.absf a) (broadcastInDim s ![] hb (constant (F := Ideal) ⟨0, ![]⟩ .f32 0x7F800000#32))) init hr hu
        ix0 = 1#1)
    (i : s.Idx) : ∃ r : ℝ, a i = (r : EReal) :=
  Cert.LibFiniteEntry.real_of_finite_test a hb i (Host.reduce_andi_all _ _ hr hu ix0 e i)

/-- When the printed test of the seven float arguments came out true, every entry of each of them is a real. -/
theorem inputs_real [Cert.Pre_finite_inputs.Facts]
    (a0 : FVec Ideal Cert.Pre_finite_inputs.S50000x256 .f32) (a1 : IVec Cert.Pre_finite_inputs.S2x800000 32)
    (a2 : FVec Ideal Cert.Pre_finite_inputs.S256x256 .f32) (a3 : FVec Ideal Cert.Pre_finite_inputs.S256 .f32)
    (a4 : FVec Ideal Cert.Pre_finite_inputs.S256x128 .f32) (a5 : FVec Ideal Cert.Pre_finite_inputs.S128 .f32)
    (a6 : FVec Ideal Cert.Pre_finite_inputs.S256x128 .f32) (a7 : FVec Ideal Cert.Pre_finite_inputs.S128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) := by
  have h0 := congrFun h ValueIdx.ix0
  dsimp only [Cert.Pre_finite_inputs.fn, Cert.Pre_finite_inputs.fn_part1] at h0
  obtain ⟨h6, e7⟩ := andi_vec_eq_one h0
  obtain ⟨h5, e6⟩ := andi_vec_eq_one h6
  obtain ⟨h4, e5⟩ := andi_vec_eq_one h5
  obtain ⟨h3, e4⟩ := andi_vec_eq_one h4
  obtain ⟨h2, e3⟩ := andi_vec_eq_one h3
  obtain ⟨e0, e2⟩ := andi_vec_eq_one h2
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7⟩

end Cert.Reals

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The two kernel bodies' arithmetic, read at an entry, at the exact values.

  Both bodies first combine, row by row, the aggregated block with the node's own block scaled by the node's
  weight: s (p, k) = agg (p, k) + x (p, k) · d (p, 0), the weight column broadcast along the row. The first body
  then stores max (s · W + b, 0), the second stores s · Wmu + bmu and s · Wlv + blv; each product is accumulated
  into the zero splat, so its entry (p, q) is the plain sum over k of s (p, k) · W (k, q), and the bias row [1, D]
  is broadcast down the rows. A change of float format is the identity at the exact values.
-/
import proofs.«159679_j13511967113592_2_alg».proof.Proof.Gen.KernelIdeal.Skeleton
import proofs.«159679_j13511967113592_2_alg».proof.Proof.LibMatmulPlain
import proofs.«159679_j13511967113592_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable [Cert.KernelIdeal.Facts]

/-- The first body's product has the plain dimension numbers. -/
theorem dot256_plain : dot_S2000x256_S256x256_S2000x256_1_0_0_1_n_n = DotDims.plain 2000 256 256 := rfl

/-- The second body's two products have the plain dimension numbers. -/
theorem dot128_plain : dot_S2000x256_S256x128_S2000x128_1_0_0_1_n_n = DotDims.plain 2000 256 128 := rfl

/-- The row-combine of the second body at (p, k). -/
theorem combine_apply (x0 x1 : Vec Ideal S2000x256 .f32) (x2 : Vec Ideal S2000x1 .f32) (p : Fin 2000) (k : Fin 256) :
    k1_pay1 (F := Ideal) x0 x1 x2 (ix2 p k) = x0 (ix2 p k) + x1 (ix2 p k) * x2 (ix2 p (0 : Fin 1)) := by
  unfold k1_pay1
  simp only [truncf_apply, addf_apply, mulf_apply, shapeCast_self, Cert.Keepdims.broadcastTo_a1_ab_apply]

/-- The first body's stored value at (p, q). -/
theorem layer1_pay_apply (x0 x1 : Vec Ideal S2000x256 .f32) (x2 : Vec Ideal S2000x1 .f32) (x3 : Vec Ideal S256x256 .f32)
    (x4 : Vec Ideal S1x256 .f32) (p : Fin 2000) (q : Fin 256) :
    k0_pay1 (F := Ideal) x0 x1 x2 x3 x4 (ix2 p q)
      = max ((∑ k : Fin 256, (x0 (ix2 p k) + x1 (ix2 p k) * x2 (ix2 p (0 : Fin 1))) * x3 (ix2 k q))
          + x4 (ix2 (0 : Fin 1) q)) 0 := by
  unfold k0_pay1
  simp only [maximumf_apply, addf_apply, broadcast_apply, dot256_plain, Cert.LibMatmulPlain.matmul_plain_zero_apply,
    broadcastTo_1b_ab_apply, truncf_apply, mulf_apply, shapeCast_self, Cert.Keepdims.broadcastTo_a1_ab_apply,
    Ideal.ofBits_def, Ideal.ofBits_zero_f32]

/-- The second body's first stored value (mu) at (p, q). -/
theorem mu_pay_apply (x0 x1 : Vec Ideal S2000x256 .f32) (x2 : Vec Ideal S2000x1 .f32) (x3 : Vec Ideal S256x128 .f32)
    (x4 : Vec Ideal S1x128 .f32) (p : Fin 2000) (q : Fin 128) :
    k1_pay2 (F := Ideal) x0 x1 x2 x3 x4 (ix2 p q)
      = (∑ k : Fin 256, (x0 (ix2 p k) + x1 (ix2 p k) * x2 (ix2 p (0 : Fin 1))) * x3 (ix2 k q))
          + x4 (ix2 (0 : Fin 1) q) := by
  unfold k1_pay2
  simp only [addf_apply, dot128_plain, Cert.LibMatmulPlain.matmul_plain_zero_apply, broadcastTo_1b_ab_apply,
    truncf_apply, shapeCast_self, combine_apply]

/-- The second body's second stored value (logvar) at (p, q). -/
theorem lv_pay_apply (x0 x1 : Vec Ideal S2000x256 .f32) (x2 : Vec Ideal S2000x1 .f32) (x5 : Vec Ideal S256x128 .f32)
    (x6 : Vec Ideal S1x128 .f32) (p : Fin 2000) (q : Fin 128) :
    k1_pay3 (F := Ideal) x0 x1 x2 x5 x6 (ix2 p q)
      = (∑ k : Fin 256, (x0 (ix2 p k) + x1 (ix2 p k) * x2 (ix2 p (0 : Fin 1))) * x5 (ix2 k q))
          + x6 (ix2 (0 : Fin 1) q) := by
  unfold k1_pay3
  simp only [addf_apply, dot128_plain, Cert.LibMatmulPlain.matmul_plain_zero_apply, broadcastTo_1b_ab_apply,
    truncf_apply, shapeCast_self, combine_apply]

end Cert.KernelIdeal.Payload

end
-- ==== Proof.Blocks.lean ====
/-
  From blocks to arrays: what each pallas_call leaves in its result arrays, as one function of the arrays it is
  entered with.

  Both calls walk the 50000 node rows in 25 blocks of 2000 rows: at grid point t the aggregated array, the node
  features and the weight column are read at rows 2000·t … 2000·t + 1999, the dense weights and the bias row whole,
  and the result block is written back at the same rows. So entry (n, q) of a result array is the body's value at
  row n mod 2000 of block n / 2000, which reads row n of the row-blocked arrays: the result is ONE function of the
  whole arrays, entry by entry, and the 25 blocks tile the array.
-/
import proofs.«159679_j13511967113592_2_alg».proof.Proof.Gen.KernelIdeal.Frame
import proofs.«159679_j13511967113592_2_alg».proof.Proof.Payload

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of the first layer's output from whole arrays. -/
def layer1Entry (A X : S50000x256.Idx → EReal) (D : S50000x1.Idx → EReal) (W : S256x256.Idx → EReal) (B : S1x256.Idx → EReal)
    (n : Fin 50000) (q : Fin 256) : EReal :=
  max ((∑ k : Fin 256, (A (ix2 n k) + X (ix2 n k) * D (ix2 n (0 : Fin 1))) * W (ix2 k q)) + B (ix2 (0 : Fin 1) q)) 0

/-- The first layer's output as one function of whole arrays. -/
def layer1Arr (A X : S50000x256.Idx → EReal) (D : S50000x1.Idx → EReal) (W : S256x256.Idx → EReal) (B : S1x256.Idx → EReal) :
    S50000x256.Idx → EReal :=
  fun i => layer1Entry A X D W B ⟨(i 0).val, (i 0).isLt⟩ ⟨(i 1).val, (i 1).isLt⟩

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Region0

/-- Point t's block of a row-blocked [50000, 256] array read at (p, k) is the array at (2000·t + p, k); the same for
    the weight column, and the dense weights and the bias row are read whole. -/
theorem flushed0_5_eq (c : Dev nD) (t : Fin cfg0.N) :
    (dat0 V c).flushed 5 t = ((cfg0.win 5).blk t).view.read (Elt Ideal)
      (layer1Arr (V c main_v42) (V c main_arg0) (V c main_v12) (V c main_arg2) (V c main_v43)) := by
  show (cfg0.win 5).cut (grid0.coords t) ((dat0 V c).after 5 t) = _
  rw [after0_5]
  unfold out0_5
  rw [View.canon_unit_zero hz]
  simp only [View.ld_unit_zero (S := S2000x256) hz, View.ld_unit_zero (S := S2000x1) hz,
    View.ld_unit_zero (S := S256x256) hz, View.ld_unit_zero (S := S1x256) hz]
  obtain ⟨e00, e01, e10, e11, e20, e21, e30, e31, e40, e41, e50, e51⟩ := idx_facts0 t
  funext j
  have hj0 : (j 0).val < 2000 := (j 0).isLt
  have hj1 : (j 1).val < 256 := (j 1).isLt
  have ht : t.val < 25 := t.isLt
  have hn : t.val * 2000 + (j 0).val < 50000 := by omega
  have hL : j = (ix2 (⟨(j 0).val, hj0⟩ : Fin 2000) (⟨(j 1).val, hj1⟩ : Fin 256) : S2000x256.Idx) :=
    funext fun a => Fin.ext (by match a with | ⟨0, _⟩ => rfl | ⟨1, _⟩ => rfl)
  have hR : layer1Arr (V c main_v42) (V c main_arg0) (V c main_v12) (V c main_arg2) (V c main_v43)
        (((cfg0.win 5).blk t).view.emb j)
      = layer1Entry (V c main_v42) (V c main_arg0) (V c main_v12) (V c main_arg2) (V c main_v43)
          ⟨t.val * 2000 + (j 0).val, hn⟩ ⟨(j 1).val, hj1⟩ := by
    unfold layer1Arr
    refine congrArg₂ _ (Fin.ext ?_) (Fin.ext ?_)
    · show win0_5.index t (0 : Fin 2) * 2000 + 1 * (j 0).val = t.val * 2000 + (j 0).val
      omega
    · show win0_5.index t (1 : Fin 2) * 256 + 1 * (j 1).val = (j 1).val
      omega
  have b0 : ∀ k : Fin 256, iblk0 V c 0 t (ix2 (⟨(j 0).val, hj0⟩ : Fin 2000) k)
      = V c main_v42 (ix2 (⟨t.val * 2000 + (j 0).val, hn⟩ : Fin 50000) k) := fun k => by
    show V c main_v42 (((cfg0.win 0).blk t).view.emb (ix2 (⟨(j 0).val, hj0⟩ : Fin 2000) k)) = _
    refine congrArg _ (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 256 + 1 * k.val = k.val; omega
  have b1 : ∀ k : Fin 256, iblk0 V c 1 t (ix2 (⟨(j 0).val, hj0⟩ : Fin 2000) k)
      = V c main_arg0 (ix2 (⟨t.val * 2000 + (j 0).val, hn⟩ : Fin 50000) k) := fun k => by
    show V c main_arg0 (((cfg0.win 1).blk t).view.emb (ix2 (⟨(j 0).val, hj0⟩ : Fin 2000) k)) = _
    refine congrArg _ (funext fun a => Fin.ext ?_)
    match a with
    | ⟨0, _⟩ => show win0_1.index t (0 : Fin 2) * 2000 + 1 * (j 0).val = t.val * 2000 + (j 0).val; omega
    | ⟨1, _⟩ => show win0_1.index t (1 : Fin 2) * 256 + 1 * k.val = k.val; omega
  have b2 : iblk0 V c 2 t (ix2 (⟨(j 0).val, hj0⟩ : Fin 2000) (0 : Fin 1))
      = V c main_v12 (ix2 (⟨t.val * 2000 + (j 0).val, hn⟩ : Fin 50000) (0 : Fin 1)) := by
    show V c main_v12 (((cfg0.win 2).blk t).view.emb (ix2 (⟨(j 0).val, hj0⟩ : Fin 2000) (0 : Fin 1))) = _
    refine congrArg _ (funext fun a => Fin.ext ?_)
    match a with
    | ⟨0, _⟩ => show win0_2.index t (0 : Fin 2) * 2000 + 1 * (j 0).val = t.val * 2000 + (j 0).val; omega
    | ⟨1, _⟩ => show win0_2.index t (1 : Fin 2) * 1 + 1 * 0 = 0; omega
  have b3 : ∀ k : Fin 256, iblk0 V c 3 t (ix2 k (⟨(j 1).val, hj1⟩ : Fin 256))
      = V c main_arg2 (ix2 k (⟨(j 1).val, hj1⟩ : Fin 256)) := fun k => by
    show V c main_arg2 (((cfg0.win 3).blk t).view.emb (ix2 k (⟨(j 1).val, hj1⟩ : Fin 256))) = _
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * (j 1).val = (j 1).val; omega
  have b4 : iblk0 V c 4 t (ix2 (0 : Fin 1) (⟨(j 1).val, hj1⟩ : Fin 256))
      = V c main_v43 (ix2 (0 : Fin 1) (⟨(j 1).val, hj1⟩ : Fin 256)) := by
    show V c main_v43 (((cfg0.win 4).blk t).view.emb (ix2 (0 : Fin 1) (⟨(j 1).val, hj1⟩ : Fin 256))) = _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * (j 1).val = (j 1).val; omega
  show k0_pay1 (F := Ideal) (iblk0 V c 0 t) (iblk0 V c 1 t) (iblk0 V c 2 t) (iblk0 V c 3 t) (iblk0 V c 4 t) j
    = layer1Arr (V c main_v42) (V c main_arg0) (V c main_v12) (V c main_arg2) (V c main_v43) (((cfg0.win 5).blk t).view.emb j)
  rw [hR]
  refine (congrArg (k0_pay1 (F := Ideal) (iblk0 V c 0 t) (iblk0 V c 1 t) (iblk0 V c 2 t) (iblk0 V c 3 t) (iblk0 V c 4 t)) hL).trans ?_
  refine (Payload.layer1_pay_apply (iblk0 V c 0 t) (iblk0 V c 1 t) (iblk0 V c 2 t) (iblk0 V c 3 t) (iblk0 V c 4 t)
    ⟨(j 0).val, hj0⟩ ⟨(j 1).val, hj1⟩).trans ?_
  unfold layer1Entry
  simp only [b0, b1, b2, b3, b4]

/-- An index of the array is in point t's block iff each coordinate is in the block's range on its axis. -/
theorem mem_blk0_5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v44).slice (win0_5.rect t)).set ↔ _
  rw [View.set_slice_whole, Rect.mem_set_unit]
  exact Iff.rfl

/-- The 25 row blocks tile the array: row n is in block n / 2000. -/
theorem covered0_5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hq : (i 0).val / 2000 < 25 := by omega
  refine ⟨⟨(i 0).val / 2000, hq⟩, flush0_5 _, ?_⟩
  rw [mem_blk0_5]
  obtain ⟨-, -, -, -, -, -, -, -, -, -, e50, e51⟩ := idx_facts0 ⟨(i 0).val / 2000, hq⟩
  intro a
  match a with
  | ⟨0, _⟩ =>
    show win0_5.index ⟨(i 0).val / 2000, hq⟩ (0 : Fin 2) * 2000 ≤ (i 0).val
      ∧ (i 0).val < win0_5.index ⟨(i 0).val / 2000, hq⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hq⟩ (1 : Fin 2) * 256 ≤ (i 1).val
      ∧ (i 1).val < win0_5.index ⟨(i 0).val / 2000, hq⟩ (1 : Fin 2) * 256 + 256
    rw [e51]
    omega

/-- THE FIRST CALL'S RESULT ARRAY after the call: the first layer of the whole arrays it was entered with. -/
theorem final0_5 (c : Dev nD) : (dat0 V c).arrAt 5 cfg0.N
    = layer1Arr (V c main_v42) (V c main_arg0) (V c main_v12) (V c main_arg2) (V c main_v43) :=
  (dat0 V c).arrAt_eq_of_cover 5 _ (fun t _ => flushed0_5_eq V c t) covered0_5

end Region0

section Region1

/-- One entry of a second-layer output (mu or logvar) from whole arrays. -/
def layer2Entry (A X : S50000x256.Idx → EReal) (D : S50000x1.Idx → EReal) (W : S256x128.Idx → EReal) (B : S1x128.Idx → EReal)
    (n : Fin 50000) (q : Fin 128) : EReal :=
  (∑ k : Fin 256, (A (ix2 n k) + X (ix2 n k) * D (ix2 n (0 : Fin 1))) * W (ix2 k q)) + B (ix2 (0 : Fin 1) q)

/-- A second-layer output as one function of whole arrays. -/
def layer2Arr (A X : S50000x256.Idx → EReal) (D : S50000x1.Idx → EReal) (W : S256x128.Idx → EReal) (B : S1x128.Idx → EReal) :
    S50000x128.Idx → EReal :=
  fun i => layer2Entry A X D W B ⟨(i 0).val, (i 0).isLt⟩ ⟨(i 1).val, (i 1).isLt⟩

/-- The second call's index maps, decided over its 25 grid points: the row-blocked windows move with the point, the
    dense weights and the bias rows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- What point t writes back through result window 7 is block t of the layer's whole-array function. -/
theorem flushed1_7_eq (c : Dev nD) (t : Fin cfg1.N) :
    (dat1 V c).flushed 7 t = ((cfg1.win 7).blk t).view.read (Elt Ideal)
      (layer2Arr (V c main_v58) (V c main_v44) (V c main_v12) (V c main_arg4) (V c main_v59)) := by
  show (cfg1.win 7).cut (grid1.coords t) ((dat1 V c).after 7 t) = _
  rw [after1_7]
  unfold out1_7
  rw [View.canon_unit_zero hz]
  simp only [View.ld_unit_zero (S := S2000x256) hz, View.ld_unit_zero (S := S2000x1) hz,
    View.ld_unit_zero (S := S256x128) hz, View.ld_unit_zero (S := S1x128) hz]
  have e := idx_facts1 t
  funext j
  have hj0 : (j 0).val < 2000 := (j 0).isLt
  have hj1 : (j 1).val < 128 := (j 1).isLt
  have ht : t.val < 25 := t.isLt
  have hn : t.val * 2000 + (j 0).val < 50000 := by omega
  have hL : j = (ix2 (⟨(j 0).val, hj0⟩ : Fin 2000) (⟨(j 1).val, hj1⟩ : Fin 128) : S2000x128.Idx) :=
    funext fun a => Fin.ext (by match a with | ⟨0, _⟩ => rfl | ⟨1, _⟩ => rfl)
  have hR : layer2Arr (V c main_v58) (V c main_v44) (V c main_v12) (V c main_arg4) (V c main_v59)
        (((cfg1.win 7).blk t).view.emb j)
      = layer2Entry (V c main_v58) (V c main_v44) (V c main_v12) (V c main_arg4) (V c main_v59)
          ⟨t.val * 2000 + (j 0).val, hn⟩ ⟨(j 1).val, hj1⟩ := by
    unfold layer2Arr
    refine congrArg₂ _ (Fin.ext ?_) (Fin.ext ?_)
    · show win1_7.index t (0 : Fin 2) * 2000 + 1 * (j 0).val = t.val * 2000 + (j 0).val
      omega
    · show win1_7.index t (1 : Fin 2) * 128 + 1 * (j 1).val = (j 1).val
      omega
  have b0 : ∀ k : Fin 256, iblk1 V c 0 t (ix2 (⟨(j 0).val, hj0⟩ : Fin 2000) k)
      = V c main_v58 (ix2 (⟨t.val * 2000 + (j 0).val, hn⟩ : Fin 50000) k) := fun k => by
    show V c main_v58 (((cfg1.win 0).blk t).view.emb (ix2 (⟨(j 0).val, hj0⟩ : Fin 2000) k)) = _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  have b1 : ∀ k : Fin 256, iblk1 V c 1 t (ix2 (⟨(j 0).val, hj0⟩ : Fin 2000) k)
      = V c main_v44 (ix2 (⟨t.val * 2000 + (j 0).val, hn⟩ : Fin 50000) k) := fun k => by
    show V c main_v44 (((cfg1.win 1).blk t).view.emb (ix2 (⟨(j 0).val, hj0⟩ : Fin 2000) k)) = _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 256 + 1 * k.val = k.val; omega
  have b2 : iblk1 V c 2 t (ix2 (⟨(j 0).val, hj0⟩ : Fin 2000) (0 : Fin 1))
      = V c main_v12 (ix2 (⟨t.val * 2000 + (j 0).val, hn⟩ : Fin 50000) (0 : Fin 1)) := by
    show V c main_v12 (((cfg1.win 2).blk t).view.emb (ix2 (⟨(j 0).val, hj0⟩ : Fin 2000) (0 : Fin 1))) = _
    refine congrArg _ (funext fun a => Fin.ext ?_)
    match a with
    | ⟨0, _⟩ => show win1_2.index t (0 : Fin 2) * 2000 + 1 * (j 0).val = t.val * 2000 + (j 0).val; omega
    | ⟨1, _⟩ => show win1_2.index t (1 : Fin 2) * 1 + 1 * 0 = 0; omega
  have b3 : ∀ k : Fin 256, iblk1 V c 3 t (ix2 k (⟨(j 1).val, hj1⟩ : Fin 128))
      = V c main_arg4 (ix2 k (⟨(j 1).val, hj1⟩ : Fin 128)) := fun k => by
    show V c main_arg4 (((cfg1.win 3).blk t).view.emb (ix2 k (⟨(j 1).val, hj1⟩ : Fin 128))) = _
    refine congrArg _ (funext fun a => Fin.ext ?_)
    match a with
    | ⟨0, _⟩ => show win1_3.index t (0 : Fin 2) * 256 + 1 * k.val = k.val; omega
    | ⟨1, _⟩ => show win1_3.index t (1 : Fin 2) * 128 + 1 * (j 1).val = (j 1).val; omega
  have b4 : iblk1 V c 4 t (ix2 (0 : Fin 1) (⟨(j 1).val, hj1⟩ : Fin 128))
      = V c main_v59 (ix2 (0 : Fin 1) (⟨(j 1).val, hj1⟩ : Fin 128)) := by
    show V c main_v59 (((cfg1.win 4).blk t).view.emb (ix2 (0 : Fin 1) (⟨(j 1).val, hj1⟩ : Fin 128))) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = (j 1).val; omega
  show k1_pay2 (F := Ideal) (iblk1 V c 0 t) (iblk1 V c 1 t) (iblk1 V c 2 t) (iblk1 V c 3 t) (iblk1 V c 4 t) j
    = layer2Arr (V c main_v58) (V c main_v44) (V c main_v12) (V c main_arg4) (V c main_v59) (((cfg1.win 7).blk t).view.emb j)
  rw [hR]
  refine (congrArg (k1_pay2 (F := Ideal) (iblk1 V c 0 t) (iblk1 V c 1 t) (iblk1 V c 2 t) (iblk1 V c 3 t) (iblk1 V c 4 t)) hL).trans ?_
  refine (Payload.mu_pay_apply (iblk1 V c 0 t) (iblk1 V c 1 t) (iblk1 V c 2 t) (iblk1 V c 3 t) (iblk1 V c 4 t)
    ⟨(j 0).val, hj0⟩ ⟨(j 1).val, hj1⟩).trans ?_
  unfold layer2Entry
  simp only [b0, b1, b2, b3, b4]

/-- An index of the array is in point t's block iff each coordinate is in the block's range on its axis. -/
theorem mem_blk1_7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v61_0).slice (win1_7.rect t)).set ↔ _
  rw [View.set_slice_whole, Rect.mem_set_unit]
  exact Iff.rfl

/-- The 25 row blocks tile the array: row n is in block n / 2000. -/
theorem covered1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hq : (i 0).val / 2000 < 25 := by omega
  refine ⟨⟨(i 0).val / 2000, hq⟩, flush1_7 _, ?_⟩
  rw [mem_blk1_7]
  have e := idx_facts1 ⟨(i 0).val / 2000, hq⟩
  intro a
  match a with
  | ⟨0, _⟩ =>
    show win1_7.index ⟨(i 0).val / 2000, hq⟩ (0 : Fin 2) * 2000 ≤ (i 0).val
      ∧ (i 0).val < win1_7.index ⟨(i 0).val / 2000, hq⟩ (0 : Fin 2) * 2000 + 2000
    have e0 : win1_7.index ⟨(i 0).val / 2000, hq⟩ (0 : Fin 2) = (i 0).val / 2000 := by
      have := e; simp only [] at this; omega
    rw [e0]
    omega
  | ⟨1, _⟩ =>
    show win1_7.index ⟨(i 0).val / 2000, hq⟩ (1 : Fin 2) * 128 ≤ (i 1).val
      ∧ (i 1).val < win1_7.index ⟨(i 0).val / 2000, hq⟩ (1 : Fin 2) * 128 + 128
    have e1 : win1_7.index ⟨(i 0).val / 2000, hq⟩ (1 : Fin 2) = 0 := by
      have := e; omega
    rw [e1]
    omega

/-- THE SECOND CALL'S FIRST RESULT ARRAY (mu) after the call: the second layer of the whole arrays it was entered with. -/
theorem final1_7 (c : Dev nD) : (dat1 V c).arrAt 7 cfg1.N
    = layer2Arr (V c main_v58) (V c main_v44) (V c main_v12) (V c main_arg4) (V c main_v59) :=
  (dat1 V c).arrAt_eq_of_cover 7 _ (fun t _ => flushed1_7_eq V c t) covered1_7

/-- What point t writes back through result window 8 is block t of the layer's whole-array function. -/
theorem flushed1_8_eq (c : Dev nD) (t : Fin cfg1.N) :
    (dat1 V c).flushed 8 t = ((cfg1.win 8).blk t).view.read (Elt Ideal)
      (layer2Arr (V c main_v58) (V c main_v44) (V c main_v12) (V c main_arg6) (V c main_v60)) := by
  show (cfg1.win 8).cut (grid1.coords t) ((dat1 V c).after 8 t) = _
  rw [after1_8]
  unfold out1_8
  rw [View.canon_unit_zero hz]
  simp only [View.ld_unit_zero (S := S2000x256) hz, View.ld_unit_zero (S := S2000x1) hz,
    View.ld_unit_zero (S := S256x128) hz, View.ld_unit_zero (S := S1x128) hz]
  have e := idx_facts1 t
  funext j
  have hj0 : (j 0).val < 2000 := (j 0).isLt
  have hj1 : (j 1).val < 128 := (j 1).isLt
  have ht : t.val < 25 := t.isLt
  have hn : t.val * 2000 + (j 0).val < 50000 := by omega
  have hL : j = (ix2 (⟨(j 0).val, hj0⟩ : Fin 2000) (⟨(j 1).val, hj1⟩ : Fin 128) : S2000x128.Idx) :=
    funext fun a => Fin.ext (by match a with | ⟨0, _⟩ => rfl | ⟨1, _⟩ => rfl)
  have hR : layer2Arr (V c main_v58) (V c main_v44) (V c main_v12) (V c main_arg6) (V c main_v60)
        (((cfg1.win 8).blk t).view.emb j)
      = layer2Entry (V c main_v58) (V c main_v44) (V c main_v12) (V c main_arg6) (V c main_v60)
          ⟨t.val * 2000 + (j 0).val, hn⟩ ⟨(j 1).val, hj1⟩ := by
    unfold layer2Arr
    refine congrArg₂ _ (Fin.ext ?_) (Fin.ext ?_)
    · show win1_8.index t (0 : Fin 2) * 2000 + 1 * (j 0).val = t.val * 2000 + (j 0).val
      omega
    · show win1_8.index t (1 : Fin 2) * 128 + 1 * (j 1).val = (j 1).val
      omega
  have b0 : ∀ k : Fin 256, iblk1 V c 0 t (ix2 (⟨(j 0).val, hj0⟩ : Fin 2000) k)
      = V c main_v58 (ix2 (⟨t.val * 2000 + (j 0).val, hn⟩ : Fin 50000) k) := fun k => by
    show V c main_v58 (((cfg1.win 0).blk t).view.emb (ix2 (⟨(j 0).val, hj0⟩ : Fin 2000) k)) = _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  have b1 : ∀ k : Fin 256, iblk1 V c 1 t (ix2 (⟨(j 0).val, hj0⟩ : Fin 2000) k)
      = V c main_v44 (ix2 (⟨t.val * 2000 + (j 0).val, hn⟩ : Fin 50000) k) := fun k => by
    show V c main_v44 (((cfg1.win 1).blk t).view.emb (ix2 (⟨(j 0).val, hj0⟩ : Fin 2000) k)) = _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 256 + 1 * k.val = k.val; omega
  have b2 : iblk1 V c 2 t (ix2 (⟨(j 0).val, hj0⟩ : Fin 2000) (0 : Fin 1))
      = V c main_v12 (ix2 (⟨t.val * 2000 + (j 0).val, hn⟩ : Fin 50000) (0 : Fin 1)) := by
    show V c main_v12 (((cfg1.win 2).blk t).view.emb (ix2 (⟨(j 0).val, hj0⟩ : Fin 2000) (0 : Fin 1))) = _
    refine congrArg _ (funext fun a => Fin.ext ?_)
    match a with
    | ⟨0, _⟩ => show win1_2.index t (0 : Fin 2) * 2000 + 1 * (j 0).val = t.val * 2000 + (j 0).val; omega
    | ⟨1, _⟩ => show win1_2.index t (1 : Fin 2) * 1 + 1 * 0 = 0; omega
  have b3 : ∀ k : Fin 256, iblk1 V c 5 t (ix2 k (⟨(j 1).val, hj1⟩ : Fin 128))
      = V c main_arg6 (ix2 k (⟨(j 1).val, hj1⟩ : Fin 128)) := fun k => by
    show V c main_arg6 (((cfg1.win 5).blk t).view.emb (ix2 k (⟨(j 1).val, hj1⟩ : Fin 128))) = _
    refine congrArg _ (funext fun a => Fin.ext ?_)
    match a with
    | ⟨0, _⟩ => show win1_5.index t (0 : Fin 2) * 256 + 1 * k.val = k.val; omega
    | ⟨1, _⟩ => show win1_5.index t (1 : Fin 2) * 128 + 1 * (j 1).val = (j 1).val; omega
  have b4 : iblk1 V c 6 t (ix2 (0 : Fin 1) (⟨(j 1).val, hj1⟩ : Fin 128))
      = V c main_v60 (ix2 (0 : Fin 1) (⟨(j 1).val, hj1⟩ : Fin 128)) := by
    show V c main_v60 (((cfg1.win 6).blk t).view.emb (ix2 (0 : Fin 1) (⟨(j 1).val, hj1⟩ : Fin 128))) = _
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * (j 1).val = (j 1).val; omega
  show k1_pay3 (F := Ideal) (iblk1 V c 0 t) (iblk1 V c 1 t) (iblk1 V c 2 t) (iblk1 V c 5 t) (iblk1 V c 6 t) j
    = layer2Arr (V c main_v58) (V c main_v44) (V c main_v12) (V c main_arg6) (V c main_v60) (((cfg1.win 8).blk t).view.emb j)
  rw [hR]
  refine (congrArg (k1_pay3 (F := Ideal) (iblk1 V c 0 t) (iblk1 V c 1 t) (iblk1 V c 2 t) (iblk1 V c 5 t) (iblk1 V c 6 t)) hL).trans ?_
  refine (Payload.lv_pay_apply (iblk1 V c 0 t) (iblk1 V c 1 t) (iblk1 V c 2 t) (iblk1 V c 5 t) (iblk1 V c 6 t)
    ⟨(j 0).val, hj0⟩ ⟨(j 1).val, hj1⟩).trans ?_
  unfold layer2Entry
  simp only [b0, b1, b2, b3, b4]

/-- An index of the array is in point t's block iff each coordinate is in the block's range on its axis. -/
theorem mem_blk1_8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v61_1).slice (win1_8.rect t)).set ↔ _
  rw [View.set_slice_whole, Rect.mem_set_unit]
  exact Iff.rfl

/-- The 25 row blocks tile the array: row n is in block n / 2000. -/
theorem covered1_8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hq : (i 0).val / 2000 < 25 := by omega
  refine ⟨⟨(i 0).val / 2000, hq⟩, flush1_8 _, ?_⟩
  rw [mem_blk1_8]
  have e := idx_facts1 ⟨(i 0).val / 2000, hq⟩
  intro a
  match a with
  | ⟨0, _⟩ =>
    show win1_8.index ⟨(i 0).val / 2000, hq⟩ (0 : Fin 2) * 2000 ≤ (i 0).val
      ∧ (i 0).val < win1_8.index ⟨(i 0).val / 2000, hq⟩ (0 : Fin 2) * 2000 + 2000
    have e0 : win1_8.index ⟨(i 0).val / 2000, hq⟩ (0 : Fin 2) = (i 0).val / 2000 := by
      have := e; simp only [] at this; omega
    rw [e0]
    omega
  | ⟨1, _⟩ =>
    show win1_8.index ⟨(i 0).val / 2000, hq⟩ (1 : Fin 2) * 128 ≤ (i 1).val
      ∧ (i 1).val < win1_8.index ⟨(i 0).val / 2000, hq⟩ (1 : Fin 2) * 128 + 128
    have e1 : win1_8.index ⟨(i 0).val / 2000, hq⟩ (1 : Fin 2) = 0 := by
      have := e; omega
    rw [e1]
    omega

/-- THE SECOND CALL'S SECOND RESULT ARRAY (logvar) after the call: the second layer with the other weights and bias. -/
theorem final1_8 (c : Dev nD) : (dat1 V c).arrAt 8 cfg1.N
    = layer2Arr (V c main_v58) (V c main_v44) (V c main_v12) (V c main_arg6) (V c main_v60) :=
  (dat1 V c).arrAt_eq_of_cover 8 _ (fun t _ => flushed1_8_eq V c t) covered1_8

end Region1

end Cert.KernelIdeal.Blocks

end
-- ==== Proof.Agg.lean ====
/-
  The aggregated array, read at an entry.

  Before each matrix product the program forms, for every node `n` and feature column `k`, the sum over the edges that
  reach `n` of the source row's feature `k` times the edge's weight: the node features are gathered by whole rows at
  the edges' source numbers (through a narrowing and a widening format change, both the identity on extended reals),
  multiplied entry by entry by the column of edge weights repeated along the feature axis, and scatter-added into zeros at
  the edges' target numbers. `aggCore` is that term over any two index columns and any weight column; `aggOf` is it at
  the graph's own columns and edge weights. Each read at `(n, k)` is the finite sum it describes.
-/
import proofs.«159679_j13511967113592_2_alg».proof.KernelIdeal
import proofs.«159679_j13511967113592_2_alg».proof.Proof.Graph
import proofs.«159679_j13511967113592_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.Agg

open Idealize.ShloMosaic Idealize.ShloMosaic.ValueIdx
open Cert.KernelIdeal.Facts₀

variable [Cert.KernelIdeal.Facts]

/-- The aggregated array over two index columns, a weight column and the node features. -/
def aggCore (dcol scol : IVec Cert.KernelIdeal.S800000x1 32) (ncol : Cert.KernelIdeal.S800000x1.Idx → EReal)
    (X : Cert.KernelIdeal.S50000x256.Idx → EReal) : Cert.KernelIdeal.S50000x256.Idx → EReal :=
  Host.scatterAdd (F := Ideal) (φ := FTy.f32) Cert.KernelIdeal.scatter_S50000x256_S800000x1_S800000x256_1_0_0_1
    (broadcastInDim Cert.KernelIdeal.S50000x256 ![] bcast_S_S50000x256 (constant (F := Ideal) Cert.KernelIdeal.S_ FTy.f32 0#32))
    dcol
    (mulf (F := Ideal) (φ := FTy.f32)
      (extf (F := Ideal) FTy.f32
        (Host.gather Cert.KernelIdeal.gather_S50000x256_S800000x1_S800000x256_1_0_n_n_0_1_1256
          (truncf (F := Ideal) (φ := FTy.f32) FTy.bf16 X bitsLt_bf16_f32) scol) bitsLt_bf16_f32)
      (broadcastInDim Cert.KernelIdeal.S800000x256 ![0, 1] bcast_S800000x1_S800000x256_0_1 ncol))

/-- The aggregated array at the graph's own target and source columns and its edge weights. -/
def aggOf (ei : Cert.Graph.Edges) (X : Cert.KernelIdeal.S50000x256.Idx → EReal) : Cert.KernelIdeal.S50000x256.Idx → EReal :=
  aggCore (Cert.Graph.dstIx ei) (Cert.Graph.srcIx ei)
    (shapeCast Cert.KernelIdeal.S800000x1 (Cert.ReferenceIdeal.Read.val_main_v26 (F := Ideal) ei) shapeCasts_S800000_S800000x1) X

/-- The scatter-add's side condition, over literal shapes. -/
theorem scatter_wf : ScatterDims.WF ⟨2, ![50000, 256]⟩ ⟨2, ![800000, 1]⟩ ⟨2, ![800000, 256]⟩ [1] [0] [0] 1 :=
  scatter_S50000x256_S800000x1_S800000x256_1_0_0_1_wf

/-- The gather's side condition, over literal shapes. -/
theorem gather_wf : GatherDims.WF ⟨2, ![50000, 256]⟩ ⟨2, ![800000, 1]⟩ ⟨2, ![800000, 256]⟩ [1] [0] [] [0] [] 1 ![1, 256] :=
  gather_S50000x256_S800000x1_S800000x256_1_0_n_n_0_1_1256_wf

/-- The zero operand reads zero everywhere. -/
theorem zeros_apply (j : Cert.KernelIdeal.S50000x256.Idx) :
    broadcastInDim Cert.KernelIdeal.S50000x256 ![] bcast_S_S50000x256 (constant (F := Ideal) Cert.KernelIdeal.S_ FTy.f32 0#32) j
      = 0 := by
  unfold broadcastInDim
  exact Ideal.ofBits_zero_f32

/-- A column `[800000, 1]` repeated along 256 columns reads, at `(e, q)`, the column's entry of row `e`. -/
theorem col_apply (ncol : Cert.KernelIdeal.S800000x1.Idx → EReal) (e : Fin 800000) (q : Fin 256) :
    broadcastInDim Cert.KernelIdeal.S800000x256 ![0, 1] bcast_S800000x1_S800000x256_0_1 ncol (ix2 e q)
      = ncol (ix2 e (0 : Fin 1)) := by
  refine broadcastInDim_apply _ bcast_S800000x1_S800000x256_0_1 ncol (ix2 e q) (ix2 e (0 : Fin 1)) fun a => ?_
  match a with
  | ⟨0, _⟩ =>
    show e.val = if (800000 : Nat) = 1 then 0 else e.val
    rw [if_neg (by decide)]
  | ⟨1, _⟩ =>
    show (0 : Nat) = if (1 : Nat) = 1 then 0 else q.val
    rw [if_pos rfl]

/-- The gathered, converted and weighted update rows at `(e, q)`: the source row's feature times the edge's weight. -/
theorem upd_apply (scol : IVec Cert.KernelIdeal.S800000x1 32) (ncol : Cert.KernelIdeal.S800000x1.Idx → EReal)
    (X : Cert.KernelIdeal.S50000x256.Idx → EReal) (e : Fin 800000) (q : Fin 256) :
    mulf (F := Ideal) (φ := FTy.f32)
      (extf (F := Ideal) FTy.f32
        (Host.gather Cert.KernelIdeal.gather_S50000x256_S800000x1_S800000x256_1_0_n_n_0_1_1256
          (truncf (F := Ideal) (φ := FTy.f32) FTy.bf16 X bitsLt_bf16_f32) scol) bitsLt_bf16_f32)
      (broadcastInDim Cert.KernelIdeal.S800000x256 ![0, 1] bcast_S800000x1_S800000x256_0_1 ncol) (ix2 e q)
      = X (ix2 (Cert.GatherRows.rowOf (by norm_num : 0 < 50000) scol e) q) * ncol (ix2 e (0 : Fin 1)) := by
  have hg : Cert.KernelIdeal.gather_S50000x256_S800000x1_S800000x256_1_0_n_n_0_1_1256
      = Cert.GatherRows.rowsDims 50000 800000 256 gather_wf := rfl
  rw [mulf_apply, extf_apply, hg, Cert.GatherRows.gather_rows_apply (by norm_num : 0 < 50000), truncf_apply, col_apply]

/-- THE AGGREGATED ARRAY AT `(n, k)`: the sum, over the edges whose target number is `n`, of the source row's feature
    `k` times the edge's weight. -/
theorem aggCore_apply (dcol scol : IVec Cert.KernelIdeal.S800000x1 32) (ncol : Cert.KernelIdeal.S800000x1.Idx → EReal)
    (X : Cert.KernelIdeal.S50000x256.Idx → EReal) (n : Fin 50000) (k : Fin 256) :
    aggCore dcol scol ncol X (ix2 n k)
      = ∑ e ∈ Finset.univ.filter (fun e : Fin 800000 => Cert.SegmentSum.seg dcol e = (n.val : Int)),
          X (ix2 (Cert.GatherRows.rowOf (by norm_num : 0 < 50000) scol e) k) * ncol (ix2 e (0 : Fin 1)) := by
  have hs : Cert.KernelIdeal.scatter_S50000x256_S800000x1_S800000x256_1_0_0_1
      = Cert.SegmentSum.rowsDims 50000 800000 256 scatter_wf := rfl
  have hh : ∀ (x : FVec Ideal (⟨2, ![50000, 256]⟩ : Shape) FTy.f32) (u : FVec Ideal (⟨2, ![800000, 256]⟩ : Shape) FTy.f32),
      Host.scatterAdd (F := Ideal) (φ := FTy.f32) (Cert.SegmentSum.rowsDims 50000 800000 256 scatter_wf) x dcol u
        = Ideal.hostScatterAdd (Cert.SegmentSum.rowsDims 50000 800000 256 scatter_wf) x dcol u := fun _ _ => rfl
  unfold aggCore
  rw [hs, hh, Cert.SegmentSum.rows_apply, zeros_apply, zero_add]
  exact Finset.sum_congr rfl fun e _ => upd_apply scol ncol X e k

/-- THE GRAPH'S AGGREGATED ARRAY AT `(n, k)`: the sum, over the edges that reach node `n`, of feature `k` of the row the
    edge reads times the edge's weight. -/
theorem aggOf_apply (ei : Cert.Graph.Edges) (X : Cert.KernelIdeal.S50000x256.Idx → EReal) (n : Fin 50000) (k : Fin 256) :
    aggOf ei X (ix2 n k)
      = ∑ e ∈ Cert.Graph.inSeg ei n, X (ix2 (Cert.Graph.srcRow ei e) k) * Cert.Graph.nrm ei e := by
  unfold aggOf
  rw [aggCore_apply]
  unfold Cert.Graph.inSeg Cert.Graph.srcRow Cert.Graph.nrm
  refine Finset.sum_congr rfl fun e _ => ?_
  rw [Cert.Keepdims.shapeCast_a_a1_apply]

end Cert.Agg

end
-- ==== Proof.Layouts.lean ====
/-
  The small layouts the kernel program's host code makes for its two pallas_calls, each read at an entry.

  The squared node weights are laid out as a [50000, 1] column, the edge weights as a [800000, 1] column, and each
  bias vector as a one-row matrix. A cast that only adds a unit axis reads the same entry back.
-/
import proofs.«159679_j13511967113592_2_alg».proof.KernelIdeal
import proofs.«159679_j13511967113592_2_alg».proof.Proof.Graph
import proofs.«159679_j13511967113592_2_alg».proof.Proof.LibKeepdims
import Idealize.ShloMosaic.Lib.ValueLayout
import Idealize.ShloMosaic.Lib.ValueIdx
import Idealize.ShloMosaic.PureOps.Ideal

noncomputable section

namespace Cert.Layouts

open Cert.KernelIdeal Idealize.ShloMosaic Idealize.ShloMosaic.ValueIdx
open Cert.KernelIdeal.Facts₀
open Cert.ReferenceIdeal.Read (val_main_v11 val_main_v26)

variable [Cert.KernelIdeal.Facts]

/-- The node-weight column: the squared node weights as a [50000, 1] column. -/
def d2col (ei : Cert.Graph.Edges) : S50000x1.Idx → EReal :=
  shapeCast S50000x1 (mulf (F := Ideal) (s := S50000) (φ := .f32) (val_main_v11 (F := Ideal) ei) (val_main_v11 (F := Ideal) ei))
    shapeCasts_S50000_S50000x1

/-- The edge-weight column: the edge weights as a [800000, 1] column. -/
def ncol (ei : Cert.Graph.Edges) : S800000x1.Idx → EReal :=
  shapeCast S800000x1 (val_main_v26 (F := Ideal) ei) shapeCasts_S800000_S800000x1

/-- A bias of 256 entries as a [1, 256] row. -/
def biasRow256 (b : S256.Idx → EReal) : S1x256.Idx → EReal := shapeCast S1x256 b shapeCasts_S256_S1x256

/-- A bias of 128 entries as a [1, 128] row. -/
def biasRow128 (b : S128.Idx → EReal) : S1x128.Idx → EReal := shapeCast S1x128 b shapeCasts_S128_S1x128

/-- The weight column at row n is the square of node n's weight. -/
theorem d2col_apply (ei : Cert.Graph.Edges) (n : Fin 50000) :
    d2col ei (ix2 n (0 : Fin 1)) = Cert.Graph.dinv ei n * Cert.Graph.dinv ei n := by
  unfold d2col Cert.Graph.dinv
  rw [Cert.Keepdims.shapeCast_a_a1_apply, mulf_apply]

/-- The edge-weight column at row e is edge e's weight. -/
theorem ncol_apply (ei : Cert.Graph.Edges) (e : Fin 800000) : ncol ei (ix2 e (0 : Fin 1)) = Cert.Graph.nrm ei e := by
  unfold ncol Cert.Graph.nrm
  rw [Cert.Keepdims.shapeCast_a_a1_apply]

/-- A bias row at (0, q) is the bias at q. -/
theorem biasRow256_apply (b : S256.Idx → EReal) (q : Fin 256) : biasRow256 b (ix2 (0 : Fin 1) q) = b (ix1 q) := by
  unfold biasRow256
  exact shapeCast_a_1a_apply b _ (0 : Fin 1) q

/-- A bias row at (0, q) is the bias at q. -/
theorem biasRow128_apply (b : S128.Idx → EReal) (q : Fin 128) : biasRow128 b (ix2 (0 : Fin 1) q) = b (ix1 q) := by
  unfold biasRow128
  exact shapeCast_a_1a_apply b _ (0 : Fin 1) q

end Cert.Layouts

end
-- ==== Proof.KSpec.lean ====
/-
  The kernel program's two results as whole-array functions of the arguments.

  The first call's result z is the first layer of: the aggregated node features, the node features, the node-weight
  column, the first dense weights and the first bias row. Each of the second call's results is the second layer of:
  the aggregated z, z itself, the same node-weight column, and that result's own dense weights and bias row.
-/
import proofs.«159679_j13511967113592_2_alg».proof.Proof.Blocks
import proofs.«159679_j13511967113592_2_alg».proof.Proof.Agg
import proofs.«159679_j13511967113592_2_alg».proof.Proof.Layouts

noncomputable section

namespace Cert.KSpec

open Cert.KernelIdeal Cert.KernelIdeal.Blocks Cert.Agg Cert.Layouts Idealize.ShloMosaic Idealize.ShloMosaic.ValueIdx

variable [Cert.KernelIdeal.Facts]

/-- The first call's result: the hidden features z. -/
def zArr (ei : Cert.Graph.Edges) (x0 : S50000x256.Idx → EReal) (w1 : S256x256.Idx → EReal) (b1 : S256.Idx → EReal) :
    S50000x256.Idx → EReal :=
  layer1Arr (aggOf ei x0) x0 (d2col ei) w1 (biasRow256 b1)

/-- One of the second call's results (mu with its weights and bias, logvar with the others). -/
def outArr (ei : Cert.Graph.Edges) (x0 : S50000x256.Idx → EReal) (w1 : S256x256.Idx → EReal) (b1 : S256.Idx → EReal)
    (w : S256x128.Idx → EReal) (b : S128.Idx → EReal) : S50000x128.Idx → EReal :=
  layer2Arr (aggOf ei (zArr ei x0 w1 b1)) (zArr ei x0 w1 b1) (d2col ei) w (biasRow128 b)

/-- z at an entry. -/
theorem zArr_apply (ei : Cert.Graph.Edges) (x0 : S50000x256.Idx → EReal) (w1 : S256x256.Idx → EReal) (b1 : S256.Idx → EReal)
    (n : Fin 50000) (q : Fin 256) :
    zArr ei x0 w1 b1 (ix2 n q) = layer1Entry (aggOf ei x0) x0 (d2col ei) w1 (biasRow256 b1) n q := rfl

/-- A second-call result at an entry. -/
theorem outArr_apply (ei : Cert.Graph.Edges) (x0 : S50000x256.Idx → EReal) (w1 : S256x256.Idx → EReal) (b1 : S256.Idx → EReal)
    (w : S256x128.Idx → EReal) (b : S128.Idx → EReal) (n : Fin 50000) (q : Fin 128) :
    outArr ei x0 w1 b1 w b (ix2 n q)
      = layer2Entry (aggOf ei (zArr ei x0 w1 b1)) (zArr ei x0 w1 b1) (d2col ei) w (biasRow128 b) n q := rfl

end Cert.KSpec

end
-- ==== Proof.RefRead.lean ====
/-
  The reference's three graph-convolution layers, read at one entry.

  Each layer is, at node `n` and column `c`: the sum over the edges reaching `n` of the edge's source row of the
  product table times the edge's weight, plus the node's own row times the square of its weight, plus the bias.
-/
import proofs.«159679_j13511967113592_2_alg».proof.Proof.Graph
import Idealize.ShloMosaic.Lib.ValueIdx
import Idealize.ShloMosaic.PureOps.Ideal
import Idealize.ShloMosaic.PureOps.Ideal.Laws

noncomputable section

open scoped BigOperators

namespace Cert.RefRead

open Cert.ReferenceIdeal Cert.ReferenceIdeal.Read Cert.Graph Idealize.ShloMosaic Idealize.ShloMosaic.ValueIdx

/-! ## Index equations -/

theorem lidx4 (n : Fin 50000) (c k : Fin 256) : lidx_main_v4 (ix2 n c) k = ix2 n k := by
  funext a; refine Fin.ext ?_
  match a with
  | ⟨0, _⟩ => rfl
  | ⟨1, _⟩ => rfl

theorem ridx4 (n : Fin 50000) (c k : Fin 256) : ridx_main_v4 (ix2 n c) k = ix2 k c := by
  funext a; refine Fin.ext ?_
  match a with
  | ⟨0, _⟩ => rfl
  | ⟨1, _⟩ => rfl

/-- The first layer's product table at an entry. -/
theorem v4_apply (x0 : (⟨S50000x256, .f32⟩ : BufTy).Contents (Elt Ideal)) (x2 : (⟨S256x256, .f32⟩ : BufTy).Contents (Elt Ideal))
    (n : Fin 50000) (c : Fin 256) :
    val_main_v4 (F := Ideal) x0 x2 (ix2 n c) = ∑ k : Fin 256, x0 (ix2 n k) * x2 (ix2 k c) := by
  refine (val_main_v4_apply x0 x2 (ix2 n c)).trans ?_
  refine Finset.sum_congr rfl fun k _ => ?_
  rw [lidx4, ridx4]

/-- The ReLU: the maximum with zero. -/
theorem relu_apply (x0 : (⟨S50000x256, .f32⟩ : BufTy).Contents (Elt Ideal)) (ei : Edges)
    (x2 : (⟨S256x256, .f32⟩ : BufTy).Contents (Elt Ideal)) (x3 : (⟨S256, .f32⟩ : BufTy).Contents (Elt Ideal))
    (n : Fin 50000) (c : Fin 256) :
    val_main_v48 (F := Ideal) x0 ei x2 x3 (ix2 n c) = max (val_main_v47 (F := Ideal) x0 ei x2 x3 (ix2 n c)) 0 := by
  rw [val_main_v48_apply, val_main_call0_v0_apply, val_main_call0_cst_apply, Ideal.maximumf_def, Ideal.ofBits_def,
    Ideal.ofBits_zero_f32]

/-! ## The later layers recompute the graph quantities: the same terms under new names -/

theorem v83_eq (ei : Edges) : val_main_v83 (F := Ideal) ei = val_main_v38 (F := Ideal) ei := rfl
theorem v77_eq (ei : Edges) : val_main_v77 (F := Ideal) ei = val_main_v32 (F := Ideal) ei := rfl
theorem v71_eq (ei : Edges) : val_main_v71 (F := Ideal) ei = val_main_v26 (F := Ideal) ei := rfl
theorem v56_eq (ei : Edges) : val_main_v56 (F := Ideal) ei = val_main_v11 (F := Ideal) ei := rfl
theorem v127_eq (ei : Edges) : val_main_v127 (F := Ideal) ei = val_main_v38 (F := Ideal) ei := rfl
theorem v121_eq (ei : Edges) : val_main_v121 (F := Ideal) ei = val_main_v32 (F := Ideal) ei := rfl
theorem v115_eq (ei : Edges) : val_main_v115 (F := Ideal) ei = val_main_v26 (F := Ideal) ei := rfl
theorem v100_eq (ei : Edges) : val_main_v100 (F := Ideal) ei = val_main_v11 (F := Ideal) ei := rfl

/-- The third layer is the second with the other weights. -/
theorem v136_eq (x0 : (⟨S50000x256, .f32⟩ : BufTy).Contents (Elt Ideal)) (ei : Edges)
    (x2 : (⟨S256x256, .f32⟩ : BufTy).Contents (Elt Ideal)) (x3 : (⟨S256, .f32⟩ : BufTy).Contents (Elt Ideal))
    (x6 : (⟨S256x128, .f32⟩ : BufTy).Contents (Elt Ideal)) (x7 : (⟨S128, .f32⟩ : BufTy).Contents (Elt Ideal)) :
    val_main_v136 (F := Ideal) x0 ei x2 x3 x6 x7 = val_main_v92 (F := Ideal) x0 ei x2 x3 x6 x7 := rfl

/-! ## The scatter and gather records are the row layouts -/

theorem scatter256_eq :
    scatter_S50000x256_S800000x1_S800000x256_1_0_0_1
      = Cert.SegmentSum.rowsDims 50000 800000 256 Facts₀.scatter_S50000x256_S800000x1_S800000x256_1_0_0_1_wf := rfl

theorem gather256_eq :
    gather_S50000x256_S800000x1_S800000x256_1_0_n_n_0_1_1256
      = Cert.GatherRows.rowsDims 50000 800000 256 Facts₀.gather_S50000x256_S800000x1_S800000x256_1_0_n_n_0_1_1256_wf := rfl

/-- At the exact instance the host's accumulating scatter is the exact sum. -/
theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## The first layer -/

/-- The gathered rows: edge `e` reads its source row of the product table. -/
theorem v33_apply (x0 : (⟨S50000x256, .f32⟩ : BufTy).Contents (Elt Ideal)) (ei : Edges) (x2 : (⟨S256x256, .f32⟩ : BufTy).Contents (Elt Ideal))
    (e : Fin 800000) (c : Fin 256) :
    val_main_v33 (F := Ideal) x0 ei x2 (ix2 e c) = ∑ k : Fin 256, x0 (ix2 (srcRow ei e) k) * x2 (ix2 k c) := by
  unfold val_main_v33
  rw [gather256_eq]
  refine (Cert.GatherRows.gather_rows_apply (by norm_num) _ (val_main_v4 (F := Ideal) x0 x2)
    (val_main_v32 (F := Ideal) ei) e c).trans ?_
  exact v4_apply x0 x2 (srcRow ei e) c

theorem idx35 (e : Fin 800000) (c : Fin 256) : idx_main_v34 (idx_main_v35 (ix2 e c)) = ix1 e := by
  funext a; refine Fin.ext ?_
  match a with
  | ⟨0, _⟩ => rfl

/-- The edge weight, broadcast along the row. -/
theorem v35_apply (ei : Edges) (e : Fin 800000) (c : Fin 256) : val_main_v35 (F := Ideal) ei (ix2 e c) = nrm ei e := by
  rw [val_main_v35_apply, val_main_v34_apply, idx35]
  rfl

theorem v36_apply (x0 : (⟨S50000x256, .f32⟩ : BufTy).Contents (Elt Ideal)) (ei : Edges) (x2 : (⟨S256x256, .f32⟩ : BufTy).Contents (Elt Ideal))
    (e : Fin 800000) (c : Fin 256) :
    val_main_v36 (F := Ideal) x0 ei x2 (ix2 e c)
      = (∑ k : Fin 256, x0 (ix2 (srcRow ei e) k) * x2 (ix2 k c)) * nrm ei e := by
  rw [val_main_v36_apply, Ideal.mulf_def, v33_apply, v35_apply]

theorem v37_apply (n : Fin 50000) (c : Fin 256) : val_main_v37 (F := Ideal) (ix2 n c) = 0 := by
  rw [val_main_v37_apply, val_main_cst_7_apply, Ideal.ofBits_def, Ideal.ofBits_zero_f32]

/-- The segment sum: over the edges reaching `n`, the source row times the edge weight. -/
theorem v39_apply (x0 : (⟨S50000x256, .f32⟩ : BufTy).Contents (Elt Ideal)) (ei : Edges) (x2 : (⟨S256x256, .f32⟩ : BufTy).Contents (Elt Ideal))
    (n : Fin 50000) (c : Fin 256) :
    val_main_v39 (F := Ideal) x0 ei x2 (ix2 n c)
      = ∑ e ∈ inSeg ei n, (∑ k : Fin 256, x0 (ix2 (srcRow ei e) k) * x2 (ix2 k c)) * nrm ei e := by
  unfold val_main_v39
  rw [scatter256_eq, scatterAdd_ideal, Cert.SegmentSum.rows_apply, v37_apply, zero_add]
  unfold inSeg dstIx
  exact Finset.sum_congr rfl fun e _ => v36_apply x0 ei x2 e c

theorem idx42 (n : Fin 50000) (c : Fin 256) : idx_main_v41 (idx_main_v42 (ix2 n c)) = ix1 n := by
  funext a; refine Fin.ext ?_
  match a with
  | ⟨0, _⟩ => rfl

/-- The node's own weight squared, broadcast along the row. -/
theorem v42_apply (ei : Edges) (n : Fin 50000) (c : Fin 256) :
    val_main_v42 (F := Ideal) ei (ix2 n c) = dinv ei n * dinv ei n := by
  rw [val_main_v42_apply, val_main_v41_apply, idx42, val_main_v40_apply, Ideal.mulf_def]
  rfl

theorem idx46 (n : Fin 50000) (c : Fin 256) : idx_main_v45 (idx_main_v46 (ix2 n c)) = ix1 c := by
  funext a; refine Fin.ext ?_
  match a with
  | ⟨0, _⟩ => rfl

/-- The bias, broadcast along the column. -/
theorem v46_apply (x3 : (⟨S256, .f32⟩ : BufTy).Contents (Elt Ideal)) (n : Fin 50000) (c : Fin 256) :
    val_main_v46 (F := Ideal) x3 (ix2 n c) = x3 (ix1 c) := by
  rw [val_main_v46_apply, val_main_v45_apply, idx46]

/-- THE FIRST LAYER AT `(n, c)`. -/
theorem layer1_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (n : Fin 50000) (c : Fin 256) :
    val_main_v47 (F := Ideal) x0 ei x2 x3 (ix2 n c)
      = ((∑ e ∈ inSeg ei n, (∑ k : Fin 256, x0 (ix2 (srcRow ei e) k) * x2 (ix2 k c)) * nrm ei e)
          + (∑ k : Fin 256, x0 (ix2 n k) * x2 (ix2 k c)) * (dinv ei n * dinv ei n))
        + x3 (ix1 c) := by
  rw [val_main_v47_apply, val_main_v44_apply, val_main_v43_apply, Ideal.addf_def, Ideal.addf_def, Ideal.mulf_def,
    v39_apply, v4_apply, v42_apply, v46_apply]

/-! ## The second layer (and the third: the same operations on the other weights) -/

theorem scatter128_eq :
    scatter_S50000x128_S800000x1_S800000x128_1_0_0_1
      = Cert.SegmentSum.rowsDims 50000 800000 128 Facts₀.scatter_S50000x128_S800000x1_S800000x128_1_0_0_1_wf := rfl

theorem gather128_eq :
    gather_S50000x128_S800000x1_S800000x128_1_0_n_n_0_1_1128
      = Cert.GatherRows.rowsDims 50000 800000 128 Facts₀.gather_S50000x128_S800000x1_S800000x128_1_0_n_n_0_1_1128_wf := rfl

theorem lidx49 (n : Fin 50000) (c : Fin 128) (k : Fin 256) : lidx_main_v49 (ix2 n c) k = ix2 n k := by
  funext a; refine Fin.ext ?_
  match a with
  | ⟨0, _⟩ => rfl
  | ⟨1, _⟩ => rfl

theorem ridx49 (n : Fin 50000) (c : Fin 128) (k : Fin 256) : ridx_main_v49 (ix2 n c) k = ix2 k c := by
  funext a; refine Fin.ext ?_
  match a with
  | ⟨0, _⟩ => rfl
  | ⟨1, _⟩ => rfl

/-- The second layer's product table at an entry: the activations' row against the weights' column. -/
theorem v49_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x4 : (⟨S256x128, .f32⟩ : BufTy).Contents (Elt Ideal))
    (n : Fin 50000) (c : Fin 128) :
    val_main_v49 (F := Ideal) x0 ei x2 x3 x4 (ix2 n c)
      = ∑ k : Fin 256, val_main_v48 (F := Ideal) x0 ei x2 x3 (ix2 n k) * x4 (ix2 k c) := by
  refine (val_main_v49_apply x0 ei x2 x3 x4 (ix2 n c)).trans ?_
  refine Finset.sum_congr rfl fun k _ => ?_
  rw [lidx49, ridx49]

/-- The gathered rows: edge `e` reads its source row of the product table. -/
theorem v78_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x4 : (⟨S256x128, .f32⟩ : BufTy).Contents (Elt Ideal))
    (e : Fin 800000) (c : Fin 128) :
    val_main_v78 (F := Ideal) x0 ei x2 x3 x4 (ix2 e c)
      = ∑ k : Fin 256, val_main_v48 (F := Ideal) x0 ei x2 x3 (ix2 (srcRow ei e) k) * x4 (ix2 k c) := by
  unfold val_main_v78
  rw [gather128_eq, v77_eq]
  refine (Cert.GatherRows.gather_rows_apply (by norm_num) _ (val_main_v49 (F := Ideal) x0 ei x2 x3 x4)
    (val_main_v32 (F := Ideal) ei) e c).trans ?_
  exact v49_apply x0 ei x2 x3 x4 (srcRow ei e) c

theorem idx80 (e : Fin 800000) (c : Fin 128) : idx_main_v79 (idx_main_v80 (ix2 e c)) = ix1 e := by
  funext a; refine Fin.ext ?_
  match a with
  | ⟨0, _⟩ => rfl

/-- The edge weight, broadcast along the row. -/
theorem v80_apply (ei : Edges) (e : Fin 800000) (c : Fin 128) : val_main_v80 (F := Ideal) ei (ix2 e c) = nrm ei e := by
  rw [val_main_v80_apply, val_main_v79_apply, idx80, v71_eq]
  rfl

theorem v81_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x4 : (⟨S256x128, .f32⟩ : BufTy).Contents (Elt Ideal))
    (e : Fin 800000) (c : Fin 128) :
    val_main_v81 (F := Ideal) x0 ei x2 x3 x4 (ix2 e c)
      = (∑ k : Fin 256, val_main_v48 (F := Ideal) x0 ei x2 x3 (ix2 (srcRow ei e) k) * x4 (ix2 k c)) * nrm ei e := by
  rw [val_main_v81_apply, Ideal.mulf_def, v78_apply, v80_apply]

theorem v82_apply (n : Fin 50000) (c : Fin 128) : val_main_v82 (F := Ideal) (ix2 n c) = 0 := by
  rw [val_main_v82_apply, val_main_cst_17_apply, Ideal.ofBits_def, Ideal.ofBits_zero_f32]

/-- The segment sum: over the edges reaching `n`, the source row times the edge weight. -/
theorem v84_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x4 : (⟨S256x128, .f32⟩ : BufTy).Contents (Elt Ideal))
    (n : Fin 50000) (c : Fin 128) :
    val_main_v84 (F := Ideal) x0 ei x2 x3 x4 (ix2 n c)
      = ∑ e ∈ inSeg ei n,
          (∑ k : Fin 256, val_main_v48 (F := Ideal) x0 ei x2 x3 (ix2 (srcRow ei e) k) * x4 (ix2 k c)) * nrm ei e := by
  unfold val_main_v84
  rw [scatter128_eq, scatterAdd_ideal, v83_eq, Cert.SegmentSum.rows_apply, v82_apply, zero_add]
  unfold inSeg dstIx
  exact Finset.sum_congr rfl fun e _ => v81_apply x0 ei x2 x3 x4 e c

theorem idx87 (n : Fin 50000) (c : Fin 128) : idx_main_v86 (idx_main_v87 (ix2 n c)) = ix1 n := by
  funext a; refine Fin.ext ?_
  match a with
  | ⟨0, _⟩ => rfl

/-- The node's own weight squared, broadcast along the row. -/
theorem v87_apply (ei : Edges) (n : Fin 50000) (c : Fin 128) :
    val_main_v87 (F := Ideal) ei (ix2 n c) = dinv ei n * dinv ei n := by
  rw [val_main_v87_apply, val_main_v86_apply, idx87, val_main_v85_apply, Ideal.mulf_def, v56_eq]
  rfl

theorem idx91 (n : Fin 50000) (c : Fin 128) : idx_main_v90 (idx_main_v91 (ix2 n c)) = ix1 c := by
  funext a; refine Fin.ext ?_
  match a with
  | ⟨0, _⟩ => rfl

/-- The bias, broadcast along the column. -/
theorem v91_apply (x5 : (⟨S128, .f32⟩ : BufTy).Contents (Elt Ideal)) (n : Fin 50000) (c : Fin 128) :
    val_main_v91 (F := Ideal) x5 (ix2 n c) = x5 (ix1 c) := by
  rw [val_main_v91_apply, val_main_v90_apply, idx91]

/-- THE SECOND LAYER AT `(n, c)`, over the activations `Z` the first layer and the ReLU leave. -/
theorem mu_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x4 : (⟨S256x128, .f32⟩ : BufTy).Contents (Elt Ideal)) (x5 : (⟨S128, .f32⟩ : BufTy).Contents (Elt Ideal))
    (n : Fin 50000) (c : Fin 128) :
    val_main_v92 (F := Ideal) x0 ei x2 x3 x4 x5 (ix2 n c)
      = ((∑ e ∈ inSeg ei n,
            (∑ k : Fin 256, val_main_v48 (F := Ideal) x0 ei x2 x3 (ix2 (srcRow ei e) k) * x4 (ix2 k c)) * nrm ei e)
          + (∑ k : Fin 256, val_main_v48 (F := Ideal) x0 ei x2 x3 (ix2 n k) * x4 (ix2 k c)) * (dinv ei n * dinv ei n))
        + x5 (ix1 c) := by
  rw [val_main_v92_apply, val_main_v89_apply, val_main_v88_apply, Ideal.addf_def, Ideal.addf_def, Ideal.mulf_def,
    v84_apply, v49_apply, v87_apply, v91_apply]

/-- THE THIRD LAYER AT `(n, c)`: the second layer's operations on the other weights. -/
theorem lv_apply (x0 : (⟨S50000x256, .f32⟩ : BufTy).Contents (Elt Ideal)) (ei : Edges) (x2 : (⟨S256x256, .f32⟩ : BufTy).Contents (Elt Ideal))
    (x3 : (⟨S256, .f32⟩ : BufTy).Contents (Elt Ideal)) (x6 : (⟨S256x128, .f32⟩ : BufTy).Contents (Elt Ideal)) (x7 : (⟨S128, .f32⟩ : BufTy).Contents (Elt Ideal))
    (n : Fin 50000) (c : Fin 128) :
    val_main_v136 (F := Ideal) x0 ei x2 x3 x6 x7 (ix2 n c)
      = ((∑ e ∈ inSeg ei n,
            (∑ k : Fin 256, val_main_v48 (F := Ideal) x0 ei x2 x3 (ix2 (srcRow ei e) k) * x6 (ix2 k c)) * nrm ei e)
          + (∑ k : Fin 256, val_main_v48 (F := Ideal) x0 ei x2 x3 (ix2 n k) * x6 (ix2 k c)) * (dinv ei n * dinv ei n))
        + x7 (ix1 c) := by
  rw [v136_eq]
  exact mu_apply x0 ei x2 x3 x6 x7 n c

end Cert.RefRead

end
-- ==== Proof.Algebra.lean ====
/-
  The one algebraic law of this certificate, over the reals and then over real-valued extended reals.

  A graph-convolution layer sends node features X (rows of K numbers) to
      out n = Σ_k ( Σ_{e → n} X (row e) k · w e  +  X n k · d ) · W k  +  b
  when the neighbours' features are summed BEFORE the dense product, and to
      out n = Σ_{e → n} ( Σ_k X (row e) k · W k ) · w e  +  ( Σ_k X n k · W k ) · d  +  b
  when the dense product is taken first. Over the reals these are one number: the product with W k distributes over
  the inner sum, the two finite sums commute, and multiplication is commutative. On the extended reals the same holds
  as soon as every entry is a real (distributivity fails at the infinities), and the common value is then a real.
-/
import Idealize.ShloMosaic.PureOps.Ideal

noncomputable section

open scoped BigOperators

namespace Cert.Algebra

/-- A finite sum of reals, each read as an extended real, is the real sum read as an extended real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The layer with the neighbours summed first is the layer with the dense product first: over the reals. -/
theorem layer_real {ι : Type*} {K : ℕ} (s : Finset ι) (Xe : ι → Fin K → ℝ) (Xn W : Fin K → ℝ) (w : ι → ℝ) (d b : ℝ) :
    (∑ k, ((∑ e ∈ s, Xe e k * w e) + Xn k * d) * W k) + b
      = ((∑ e ∈ s, (∑ k, Xe e k * W k) * w e) + (∑ k, Xn k * W k) * d) + b := by
  have h1 : ∑ k, (∑ e ∈ s, Xe e k * w e) * W k = ∑ e ∈ s, (∑ k, Xe e k * W k) * w e := by
    simp_rw [Finset.sum_mul]
    rw [Finset.sum_comm]
    exact Finset.sum_congr rfl fun e _ => Finset.sum_congr rfl fun k _ => by ring
  have h2 : ∑ k, Xn k * d * W k = (∑ k, Xn k * W k) * d := by
    rw [Finset.sum_mul]
    exact Finset.sum_congr rfl fun k _ => by ring
  simp_rw [add_mul, Finset.sum_add_distrib, h1, h2]

/-- The same on the extended reals when every entry is a real; the common value is a real. -/
theorem layer_ereal {ι : Type*} {K : ℕ} (s : Finset ι) (Xe : ι → Fin K → EReal) (Xn W : Fin K → EReal) (w : ι → EReal)
    (d b : EReal) (hXe : ∀ e k, ∃ r : ℝ, Xe e k = (r : EReal)) (hXn : ∀ k, ∃ r : ℝ, Xn k = (r : EReal))
    (hW : ∀ k, ∃ r : ℝ, W k = (r : EReal)) (hw : ∀ e, ∃ r : ℝ, w e = (r : EReal))
    (hd : ∃ r : ℝ, d = (r : EReal)) (hb : ∃ r : ℝ, b = (r : EReal)) :
    (∑ k, ((∑ e ∈ s, Xe e k * w e) + Xn k * d) * W k) + b
        = ((∑ e ∈ s, (∑ k, Xe e k * W k) * w e) + (∑ k, Xn k * W k) * d) + b
      ∧ ∃ r : ℝ, (∑ k, ((∑ e ∈ s, Xe e k * w e) + Xn k * d) * W k) + b = (r : EReal) := by
  choose xe hxe using hXe
  choose xn hxn using hXn
  choose w' hw' using hW
  choose we hwe using hw
  obtain ⟨d', rfl⟩ := hd
  obtain ⟨b', rfl⟩ := hb
  have hK : (∑ k, ((∑ e ∈ s, Xe e k * w e) + Xn k * (d' : EReal)) * W k) + (b' : EReal)
      = (((∑ k, ((∑ e ∈ s, xe e k * we e) + xn k * d') * w' k) + b' : ℝ) : EReal) := by
    simp only [hxe, hxn, hw', hwe, ← EReal.coe_mul, ← EReal.coe_add, coe_sum]
  have hR : ((∑ e ∈ s, (∑ k, Xe e k * W k) * w e) + (∑ k, Xn k * W k) * (d' : EReal)) + (b' : EReal)
      = ((((∑ e ∈ s, (∑ k, xe e k * w' k) * we e) + (∑ k, xn k * w' k) * d') + b' : ℝ) : EReal) := by
    simp only [hxe, hxn, hw', hwe, ← EReal.coe_mul, ← EReal.coe_add, coe_sum]
  refine ⟨?_, _, hK⟩
  rw [hK, hR, layer_real]

/-- The larger of a real and zero, read as an extended real. -/
theorem max_coe_zero (r : ℝ) : max (r : EReal) 0 = ((max r 0 : ℝ) : EReal) := by
  rw [← EReal.coe_zero]
  exact (EReal.coe_strictMono.monotone.map_max).symm

end Cert.Algebra

end
-- ==== Proof.Bridge.lean ====
/-
  The kernel's arrangement equals the reference's, entry by entry, when the float inputs are real.

  The kernel program sums the neighbours' features first and takes the dense product after; the reference takes the
  dense product first and sums the neighbours' rows of it after. At every entry both are one instance of the layer law
  over real-valued extended reals, whose entries are real because the inputs are, because every node weight and every
  edge weight is, and, for the second layer, because the first layer's output is: the larger of a real and zero.
-/
import proofs.«159679_j13511967113592_2_alg».proof.Proof.KSpec
import proofs.«159679_j13511967113592_2_alg».proof.Proof.RefRead
import proofs.«159679_j13511967113592_2_alg».proof.Proof.Reals
import proofs.«159679_j13511967113592_2_alg».proof.Proof.Algebra
import proofs.«159679_j13511967113592_2_alg».proof.Proof.Agg
import proofs.«159679_j13511967113592_2_alg».proof.Proof.Layouts

noncomputable section

open scoped BigOperators

namespace Cert.Bridge

open Idealize.ShloMosaic Idealize.ShloMosaic.ValueIdx
open Cert.Graph (inSeg srcRow nrm dinv)

variable [Cert.KernelIdeal.Facts]

/-- The square of a node's weight is a real. -/
theorem d2_real (ei : Cert.Graph.Edges) (n : Fin 50000) : ∃ r : ℝ, dinv ei n * dinv ei n = (r : EReal) := by
  obtain ⟨p, hp⟩ := Cert.Reals.dinv_real ei n
  exact ⟨p * p, by rw [hp, ← EReal.coe_mul]⟩

/-! ## The first layer -/

set_option maxHeartbeats 400000 in
/-- The kernel's hidden features at `(n, q)`, with the neighbours summed before the dense product. -/
theorem zK_apply (ei : Cert.Graph.Edges) (x0 : Cert.KernelIdeal.S50000x256.Idx → EReal)
    (w1 : Cert.KernelIdeal.S256x256.Idx → EReal) (b1 : Cert.KernelIdeal.S256.Idx → EReal) (n : Fin 50000) (q : Fin 256) :
    Cert.KSpec.zArr ei x0 w1 b1 (ix2 n q)
      = max ((∑ k : Fin 256, ((∑ e ∈ inSeg ei n, x0 (ix2 (srcRow ei e) k) * nrm ei e)
                + x0 (ix2 n k) * (dinv ei n * dinv ei n)) * w1 (ix2 k q)) + b1 (ix1 q)) 0 := by
  rw [Cert.KSpec.zArr_apply]
  unfold Cert.KernelIdeal.Blocks.layer1Entry
  rw [Cert.Layouts.d2col_apply, Cert.Layouts.biasRow256_apply]
  simp only [Cert.Agg.aggOf_apply]

set_option maxHeartbeats 400000 in
/-- THE HIDDEN FEATURES: the kernel's entry is the reference's, and it is a real. -/
theorem z_entry (ei : Cert.Graph.Edges) (x0 : Cert.KernelIdeal.S50000x256.Idx → EReal)
    (w1 : Cert.KernelIdeal.S256x256.Idx → EReal) (b1 : Cert.KernelIdeal.S256.Idx → EReal)
    (hx0 : ∀ i, ∃ r : ℝ, x0 i = (r : EReal)) (hw1 : ∀ i, ∃ r : ℝ, w1 i = (r : EReal))
    (hb1 : ∀ i, ∃ r : ℝ, b1 i = (r : EReal)) (n : Fin 50000) (q : Fin 256) :
    Cert.KSpec.zArr ei x0 w1 b1 (ix2 n q) = Cert.ReferenceIdeal.Read.val_main_v48 (F := Ideal) x0 ei w1 b1 (ix2 n q)
      ∧ ∃ r : ℝ, Cert.KSpec.zArr ei x0 w1 b1 (ix2 n q) = (r : EReal) := by
  obtain ⟨hEq, r, hr⟩ := Cert.Algebra.layer_ereal (inSeg ei n)
    (fun (e : Fin 800000) (k : Fin 256) => x0 (ix2 (srcRow ei e) k)) (fun k : Fin 256 => x0 (ix2 n k))
    (fun k : Fin 256 => w1 (ix2 k q)) (fun e : Fin 800000 => nrm ei e) (dinv ei n * dinv ei n) (b1 (ix1 q))
    (fun e k => hx0 _) (fun k => hx0 _) (fun k => hw1 _) (fun e => Cert.Reals.nrm_real ei e) (d2_real ei n) (hb1 _)
  rw [zK_apply, Cert.RefRead.relu_apply, Cert.RefRead.layer1_apply]
  exact ⟨congrArg (fun t : EReal => max t 0) hEq, max r 0,
    (congrArg (fun t : EReal => max t 0) hr).trans (Cert.Algebra.max_coe_zero r)⟩

/-! ## The second layer -/

set_option maxHeartbeats 400000 in
/-- A second-call result of the kernel at `(n, q)`, with the neighbours summed before the dense product. -/
theorem outK_apply (ei : Cert.Graph.Edges) (x0 : Cert.KernelIdeal.S50000x256.Idx → EReal)
    (w1 : Cert.KernelIdeal.S256x256.Idx → EReal) (b1 : Cert.KernelIdeal.S256.Idx → EReal)
    (w : Cert.KernelIdeal.S256x128.Idx → EReal) (b : Cert.KernelIdeal.S128.Idx → EReal) (n : Fin 50000) (q : Fin 128) :
    Cert.KSpec.outArr ei x0 w1 b1 w b (ix2 n q)
      = (∑ k : Fin 256, ((∑ e ∈ inSeg ei n, Cert.KSpec.zArr ei x0 w1 b1 (ix2 (srcRow ei e) k) * nrm ei e)
            + Cert.KSpec.zArr ei x0 w1 b1 (ix2 n k) * (dinv ei n * dinv ei n)) * w (ix2 k q)) + b (ix1 q) := by
  rw [Cert.KSpec.outArr_apply]
  unfold Cert.KernelIdeal.Blocks.layer2Entry
  rw [Cert.Layouts.d2col_apply, Cert.Layouts.biasRow128_apply]
  simp only [Cert.Agg.aggOf_apply]

set_option maxHeartbeats 400000 in
/-- A second-call result of the kernel at `(n, q)` is the reference's second layer with the same weights. -/
theorem out_entry (ei : Cert.Graph.Edges) (x0 : Cert.KernelIdeal.S50000x256.Idx → EReal)
    (w1 : Cert.KernelIdeal.S256x256.Idx → EReal) (b1 : Cert.KernelIdeal.S256.Idx → EReal)
    (w : Cert.KernelIdeal.S256x128.Idx → EReal) (b : Cert.KernelIdeal.S128.Idx → EReal)
    (hx0 : ∀ i, ∃ r : ℝ, x0 i = (r : EReal)) (hw1 : ∀ i, ∃ r : ℝ, w1 i = (r : EReal))
    (hb1 : ∀ i, ∃ r : ℝ, b1 i = (r : EReal)) (hw : ∀ i, ∃ r : ℝ, w i = (r : EReal))
    (hb : ∀ i, ∃ r : ℝ, b i = (r : EReal)) (n : Fin 50000) (q : Fin 128) :
    Cert.KSpec.outArr ei x0 w1 b1 w b (ix2 n q)
      = Cert.ReferenceIdeal.Read.val_main_v92 (F := Ideal) x0 ei w1 b1 w b (ix2 n q) := by
  have hz : ∀ (a : Fin 50000) (k : Fin 256),
      Cert.ReferenceIdeal.Read.val_main_v48 (F := Ideal) x0 ei w1 b1 (ix2 a k) = Cert.KSpec.zArr ei x0 w1 b1 (ix2 a k) :=
    fun a k => (z_entry ei x0 w1 b1 hx0 hw1 hb1 a k).1.symm
  rw [outK_apply, Cert.RefRead.mu_apply]
  simp only [hz]
  exact (Cert.Algebra.layer_ereal (inSeg ei n)
    (fun (e : Fin 800000) (k : Fin 256) => Cert.KSpec.zArr ei x0 w1 b1 (ix2 (srcRow ei e) k))
    (fun k : Fin 256 => Cert.KSpec.zArr ei x0 w1 b1 (ix2 n k))
    (fun k : Fin 256 => w (ix2 k q)) (fun e : Fin 800000 => nrm ei e) (dinv ei n * dinv ei n) (b (ix1 q))
    (fun e k => (z_entry ei x0 w1 b1 hx0 hw1 hb1 (srcRow ei e) k).2) (fun k => (z_entry ei x0 w1 b1 hx0 hw1 hb1 n k).2)
    (fun k => hw _) (fun e => Cert.Reals.nrm_real ei e) (d2_real ei n) (hb _)).1

set_option maxHeartbeats 400000 in
/-- THE FIRST RESULT: the kernel's array is the reference's second layer. -/
theorem out_mu (ei : Cert.Graph.Edges) (x0 : Cert.KernelIdeal.S50000x256.Idx → EReal)
    (w1 : Cert.KernelIdeal.S256x256.Idx → EReal) (b1 : Cert.KernelIdeal.S256.Idx → EReal)
    (w : Cert.KernelIdeal.S256x128.Idx → EReal) (b : Cert.KernelIdeal.S128.Idx → EReal)
    (hx0 : ∀ i, ∃ r : ℝ, x0 i = (r : EReal)) (hw1 : ∀ i, ∃ r : ℝ, w1 i = (r : EReal))
    (hb1 : ∀ i, ∃ r : ℝ, b1 i = (r : EReal)) (hw : ∀ i, ∃ r : ℝ, w i = (r : EReal))
    (hb : ∀ i, ∃ r : ℝ, b i = (r : EReal)) :
    Cert.KSpec.outArr ei x0 w1 b1 w b = Cert.ReferenceIdeal.Read.val_main_v92 (F := Ideal) x0 ei w1 b1 w b := by
  funext i
  obtain ⟨n, q, rfl⟩ : ∃ (n : Fin 50000) (q : Fin 128), i = ix2 n q := ⟨i 0, i 1, eq_ix2 i⟩
  exact out_entry ei x0 w1 b1 w b hx0 hw1 hb1 hw hb n q

set_option maxHeartbeats 400000 in
/-- THE SECOND RESULT: the kernel's array is the reference's third layer, the second layer's operations on the other
    weights. -/
theorem out_lv (ei : Cert.Graph.Edges) (x0 : Cert.KernelIdeal.S50000x256.Idx → EReal)
    (w1 : Cert.KernelIdeal.S256x256.Idx → EReal) (b1 : Cert.KernelIdeal.S256.Idx → EReal)
    (w : Cert.KernelIdeal.S256x128.Idx → EReal) (b : Cert.KernelIdeal.S128.Idx → EReal)
    (hx0 : ∀ i, ∃ r : ℝ, x0 i = (r : EReal)) (hw1 : ∀ i, ∃ r : ℝ, w1 i = (r : EReal))
    (hb1 : ∀ i, ∃ r : ℝ, b1 i = (r : EReal)) (hw : ∀ i, ∃ r : ℝ, w i = (r : EReal))
    (hb : ∀ i, ∃ r : ℝ, b i = (r : EReal)) :
    Cert.KSpec.outArr ei x0 w1 b1 w b = Cert.ReferenceIdeal.Read.val_main_v136 (F := Ideal) x0 ei w1 b1 w b := by
  rw [Cert.RefRead.v136_eq]
  exact out_mu ei x0 w1 b1 w b hx0 hw1 hb1 hw hb

end Cert.Bridge

end
-- ==== Proof.Assembly.lean ====
/-
  The certificate's claims, assembled from the two programs' runs.

  The frame claims are the generated runs. The algebraic claim takes the kernel program's run as a hypothesis: every
  execution ends with the two results at one whole-array function `out` of the argument arrays (once with the first
  pair of dense weights and bias, once with the second). The reference's run ends with its two results at its own
  composed terms of the argument arrays; when every float argument is real the function `out` is those terms, so
  from memories that agree on the arguments both programs end with equal results.
-/
import proofs.«159679_j13511967113592_2_alg».proof.Defs
import proofs.«159679_j13511967113592_2_alg».proof.Proof.Gen.Kernel.Frame
import proofs.«159679_j13511967113592_2_alg».proof.Proof.Gen.KernelIdeal.Frame
import proofs.«159679_j13511967113592_2_alg».proof.Proof.Gen.ReferenceIdeal.Read
import proofs.«159679_j13511967113592_2_alg».proof.Proof.Gen.Pre_finite_inputs
import proofs.«159679_j13511967113592_2_alg».proof.Proof.Reals
import proofs.«159679_j13511967113592_2_alg».proof.Proof.KSpec
import proofs.«159679_j13511967113592_2_alg».proof.Proof.Bridge

noncomputable section

open Idealize.ShloMosaic Idealize.ShloMosaic.TcCoe Idealize.SL.Sem

namespace Cert.Assembly

/-! ## The frame claims: the generated runs -/

set_option maxHeartbeats 400000 in
theorem frame_k : Cert.frame_Kernel := fun m ρ _ => Cert.Kernel.Gen.frame m ρ

set_option maxHeartbeats 400000 in
theorem frame_ki : Cert.frame_KernelIdeal := fun m ρ _ => Cert.KernelIdeal.Gen.frame m ρ

set_option maxHeartbeats 400000 in
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-! ## The algebraic claim -/

set_option maxHeartbeats 400000 in
/-- From the kernel program's run with its results at `out` of the argument arrays, and `out` equal to the reference's
    composed terms whenever the float arguments are real, the two programs end with equal results. -/
theorem algebraic_of_run_gen [hK : Cert.KernelIdeal.Facts] [hR : Cert.ReferenceIdeal.Facts] [hP : Cert.Pre_finite_inputs.Facts]
    (out : Cert.Graph.Edges → (Cert.ReferenceIdeal.S50000x256.Idx → EReal) → (Cert.ReferenceIdeal.S256x256.Idx → EReal) → (Cert.ReferenceIdeal.S256.Idx → EReal) → (Cert.ReferenceIdeal.S256x128.Idx → EReal) → (Cert.ReferenceIdeal.S128.Idx → EReal) → Cert.ReferenceIdeal.S50000x128.Idx → EReal)
    (out_mu : ∀ (ei : Cert.Graph.Edges) (x0 : Cert.ReferenceIdeal.S50000x256.Idx → EReal) (w1 : Cert.ReferenceIdeal.S256x256.Idx → EReal)
      (b1 : Cert.ReferenceIdeal.S256.Idx → EReal) (w : Cert.ReferenceIdeal.S256x128.Idx → EReal) (b : Cert.ReferenceIdeal.S128.Idx → EReal),
      (∀ i, ∃ r : ℝ, x0 i = (r : EReal)) → (∀ i, ∃ r : ℝ, w1 i = (r : EReal)) → (∀ i, ∃ r : ℝ, b1 i = (r : EReal)) →
      (∀ i, ∃ r : ℝ, w i = (r : EReal)) → (∀ i, ∃ r : ℝ, b i = (r : EReal)) →
      out ei x0 w1 b1 w b = Cert.ReferenceIdeal.Read.val_main_v92 (F := Ideal) x0 ei w1 b1 w b)
    (out_lv : ∀ (ei : Cert.Graph.Edges) (x0 : Cert.ReferenceIdeal.S50000x256.Idx → EReal) (w1 : Cert.ReferenceIdeal.S256x256.Idx → EReal)
      (b1 : Cert.ReferenceIdeal.S256.Idx → EReal) (w : Cert.ReferenceIdeal.S256x128.Idx → EReal) (b : Cert.ReferenceIdeal.S128.Idx → EReal),
      (∀ i, ∃ r : ℝ, x0 i = (r : EReal)) → (∀ i, ∃ r : ℝ, w1 i = (r : EReal)) → (∀ i, ∃ r : ℝ, b1 i = (r : EReal)) →
      (∀ i, ∃ r : ℝ, w i = (r : EReal)) → (∀ i, ∃ r : ℝ, b i = (r : EReal)) →
      out ei x0 w1 b1 w b = Cert.ReferenceIdeal.Read.val_main_v136 (F := Ideal) x0 ei w1 b1 w b)
    (krun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v61_0) = out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_v61_1) = out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))) :
    Cert.algebraic_KernelIdeal_ReferenceIdeal := by
  intro m ρ m' ρ' hpre hagree
  refine ⟨fun c => out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), krun m ρ, ?_⟩
  refine (θ_run Cert.ReferenceIdeal.defs _ _).mono (fun _ h c => ?_) (Cert.ReferenceIdeal.Value.run (F := Ideal) m' ρ')
  obtain ⟨r0, r2, r3, r4, r5, r6, r7⟩ := Cert.Reals.inputs_real _ _ _ _ _ _ _ _ (hpre c)
  obtain ⟨a0, a1, a2, a3, a4, a5, a6, a7⟩ := hagree c
  refine ⟨(h c).1.trans ?_, (h c).2.1.trans ?_, (h c).2.2⟩
  · refine (Cert.ReferenceIdeal.Read.val_main_v92_eq m' c).trans ?_
    rw [a0, a1, a2, a3, a4, a5]
    exact (out_mu _ _ _ _ _ _ r0 r2 r3 r4 r5).symm
  · refine (Cert.ReferenceIdeal.Read.val_main_v136_eq m' c).trans ?_
    rw [a0, a1, a2, a3, a6, a7]
    exact (out_lv _ _ _ _ _ _ r0 r2 r3 r6 r7).symm

set_option maxHeartbeats 400000 in
/-- THE ALGEBRAIC CLAIM, from the kernel program's run with its two results at the whole-array functions of the
    argument arrays: those functions are the reference's second and third layers when the float arguments are real. -/
theorem algebraic_of_run [hK : Cert.KernelIdeal.Facts] [hR : Cert.ReferenceIdeal.Facts] [hP : Cert.Pre_finite_inputs.Facts]
    (krun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v61_0) = Cert.KSpec.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_v61_1) = Cert.KSpec.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))) :
    Cert.algebraic_KernelIdeal_ReferenceIdeal :=
  algebraic_of_run_gen Cert.KSpec.outArr Cert.Bridge.out_mu Cert.Bridge.out_lv krun

end Cert.Assembly

end
-- ==== Proof.HostChain.lean ====
/-
  What the kernel program's host code leaves in the arrays the two pallas_calls are entered with — the part that
  does not involve the aggregated array.

  Before the first call the host computes, from the edge list alone, the node-weight column (the squared node
  weights laid out as a [50000, 1] column) and lays the first bias out as a [1, 256] row; the node features and the
  dense weights are passed as launched. Between the calls it only aggregates again (next module) and lays the two
  second-layer biases out as [1, 128] rows; nothing it writes is an array the first call touched, so the weight column
  and the edge quantities reach the second call unchanged. The host code spells the edge quantities operation by
  operation exactly as the reference does, so each is the reference's stage function by unfolding.
-/
import proofs.«159679_j13511967113592_2_alg».proof.Proof.Gen.KernelIdeal.Frame
import proofs.«159679_j13511967113592_2_alg».proof.Proof.Graph
import proofs.«159679_j13511967113592_2_alg».proof.Proof.Layouts
import Idealize.ShloMosaic.Lib.StableHlo.Run
import Idealize.ShloMosaic.Lib.ValueLayout
import Idealize.ShloMosaic.PureOps.Ideal

set_option maxRecDepth 16384

noncomputable section

namespace Cert.KernelIdeal.HostChain

open Cert.KernelIdeal Cert.KernelIdeal.Gen Idealize.ShloMosaic Idealize.ShloMosaic.TcCoe Idealize.ShloMosaic.StableHlo
open Idealize.ShloMosaic.ValueIdx Idealize.SL.Sem
open Cert.ReferenceIdeal.Read (val_main_v1 val_main_v3)
open Cert.Layouts (d2col ncol biasRow256 biasRow128)

variable (m : (ℓ : Loc nD τ sig) → Buf (Elt Ideal) ℓ) (ρ : Dev nD → PrngReg)

/-! ## The first call's entry arrays -/

set_option maxHeartbeats 1000000 in
theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results_simp

set_option maxHeartbeats 1000000 in
theorem W1_arg2 (c : Dev nD) : W1 (F := Ideal) m ρ c (Proc.devRef .tc main_arg2) = m ((c : Thread nD τ).loc main_arg2) := by
  show StableHlo.after hostOps0 (W0 m ρ c) (Proc.devRef .tc main_arg2) = _
  after_results_simp

set_option maxHeartbeats 1000000 in
theorem W1_arg4 (c : Dev nD) : W1 (F := Ideal) m ρ c (Proc.devRef .tc main_arg4) = m ((c : Thread nD τ).loc main_arg4) := by
  show StableHlo.after hostOps0 (W0 m ρ c) (Proc.devRef .tc main_arg4) = _
  after_results_simp

set_option maxHeartbeats 1000000 in
theorem W1_arg5 (c : Dev nD) : W1 (F := Ideal) m ρ c (Proc.devRef .tc main_arg5) = m ((c : Thread nD τ).loc main_arg5) := by
  show StableHlo.after hostOps0 (W0 m ρ c) (Proc.devRef .tc main_arg5) = _
  after_results_simp

set_option maxHeartbeats 1000000 in
theorem W1_arg6 (c : Dev nD) : W1 (F := Ideal) m ρ c (Proc.devRef .tc main_arg6) = m ((c : Thread nD τ).loc main_arg6) := by
  show StableHlo.after hostOps0 (W0 m ρ c) (Proc.devRef .tc main_arg6) = _
  after_results_simp

set_option maxHeartbeats 1000000 in
theorem W1_arg7 (c : Dev nD) : W1 (F := Ideal) m ρ c (Proc.devRef .tc main_arg7) = m ((c : Thread nD τ).loc main_arg7) := by
  show StableHlo.after hostOps0 (W0 m ρ c) (Proc.devRef .tc main_arg7) = _
  after_results_simp

set_option maxHeartbeats 1000000 in
/-- The weight column the first call is entered with. -/
theorem W1_v12 (c : Dev nD) : W1 (F := Ideal) m ρ c (Proc.devRef .tc main_v12) = d2col (m ((c : Thread nD τ).loc main_arg1)) := by
  show StableHlo.after hostOps0 (W0 m ρ c) (Proc.devRef .tc main_v12) = _
  after_results_simp
  rfl

set_option maxHeartbeats 1000000 in
/-- The first bias as the row the first call is entered with. -/
theorem W1_v43 (c : Dev nD) : W1 (F := Ideal) m ρ c (Proc.devRef .tc main_v43) = biasRow256 (m ((c : Thread nD τ).loc main_arg3)) := by
  show StableHlo.after hostOps0 (W0 m ρ c) (Proc.devRef .tc main_v43) = _
  after_results_simp
  rfl

set_option maxHeartbeats 1000000 in
/-- The source numbers. -/
theorem W1_v1 (c : Dev nD) : W1 (F := Ideal) m ρ c (Proc.devRef .tc main_v1) = val_main_v1 (F := Ideal) (m ((c : Thread nD τ).loc main_arg1)) := by
  show StableHlo.after hostOps0 (W0 m ρ c) (Proc.devRef .tc main_v1) = _
  after_results_simp
  rfl

set_option maxHeartbeats 1000000 in
/-- The target numbers. -/
theorem W1_v3 (c : Dev nD) : W1 (F := Ideal) m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 1000000 in
/-- The edge-weight column. -/
theorem W1_v28 (c : Dev nD) : W1 (F := Ideal) m ρ c (Proc.devRef .tc main_v28) = ncol (m ((c : Thread nD τ).loc main_arg1)) := by
  show StableHlo.after hostOps0 (W0 m ρ c) (Proc.devRef .tc main_v28) = _
  after_results_simp
  rfl

/-! ## Through the first call: what it does not write it leaves -/

theorem W2_v1 (c : Dev nD) : W2 (F := Ideal) m ρ c (Proc.devRef .tc main_v1) = val_main_v1 (F := Ideal) (m ((c : Thread nD τ).loc main_arg1)) :=
  (W2_of_ne m ρ c main_v1 (by decide)).trans (W1_v1 m ρ c)

theorem W2_v3 (c : Dev nD) : W2 (F := Ideal) m ρ c (Proc.devRef .tc main_v3) = val_main_v3 (F := Ideal) (m ((c : Thread nD τ).loc main_arg1)) :=
  (W2_of_ne m ρ c main_v3 (by decide)).trans (W1_v3 m ρ c)

theorem W2_v28 (c : Dev nD) : W2 (F := Ideal) m ρ c (Proc.devRef .tc main_v28) = ncol (m ((c : Thread nD τ).loc main_arg1)) :=
  (W2_of_ne m ρ c main_v28 (by decide)).trans (W1_v28 m ρ c)

theorem W2_arg4 (c : Dev nD) : W2 (F := Ideal) m ρ c (Proc.devRef .tc main_arg4) = m ((c : Thread nD τ).loc main_arg4) :=
  (W2_of_ne m ρ c main_arg4 (by decide)).trans (W1_arg4 m ρ c)

theorem W2_arg5 (c : Dev nD) : W2 (F := Ideal) m ρ c (Proc.devRef .tc main_arg5) = m ((c : Thread nD τ).loc main_arg5) :=
  (W2_of_ne m ρ c main_arg5 (by decide)).trans (W1_arg5 m ρ c)

theorem W2_arg6 (c : Dev nD) : W2 (F := Ideal) m ρ c (Proc.devRef .tc main_arg6) = m ((c : Thread nD τ).loc main_arg6) :=
  (W2_of_ne m ρ c main_arg6 (by decide)).trans (W1_arg6 m ρ c)

theorem W2_arg7 (c : Dev nD) : W2 (F := Ideal) m ρ c (Proc.devRef .tc main_arg7) = m ((c : Thread nD τ).loc main_arg7) :=
  (W2_of_ne m ρ c main_arg7 (by decide)).trans (W1_arg7 m ρ c)

/-- The weight column is an input of the first call: it leaves it as entered. -/
theorem W2_v12 (c : Dev nD) : W2 (F := Ideal) m ρ c (Proc.devRef .tc main_v12) = d2col (m ((c : Thread nD τ).loc main_arg1)) :=
  ((W2_arr m ρ c 2).trans (((dat0 (V1 m ρ) c).arrAt_in 2 rfl _).trans (A_eq0 (V1 m ρ) c 2))).trans (W1_v12 m ρ c)

/-! ## The second call's entry arrays (all but the aggregated one and the first call's result) -/

set_option maxHeartbeats 1000000 in
theorem W3_v12 (c : Dev nD) : W3 (F := Ideal) m ρ c (Proc.devRef .tc main_v12) = d2col (m ((c : Thread nD τ).loc main_arg1)) := by
  show StableHlo.after hostOps1 (W2 m ρ c) (Proc.devRef .tc main_v12) = _
  after_results_simp
  exact W2_v12 m ρ c

set_option maxHeartbeats 1000000 in
theorem W3_arg4 (c : Dev nD) : W3 (F := Ideal) m ρ c (Proc.devRef .tc main_arg4) = m ((c : Thread nD τ).loc main_arg4) := by
  show StableHlo.after hostOps1 (W2 m ρ c) (Proc.devRef .tc main_arg4) = _
  after_results_simp
  exact W2_arg4 m ρ c

set_option maxHeartbeats 1000000 in
theorem W3_arg6 (c : Dev nD) : W3 (F := Ideal) m ρ c (Proc.devRef .tc main_arg6) = m ((c : Thread nD τ).loc main_arg6) := by
  show StableHlo.after hostOps1 (W2 m ρ c) (Proc.devRef .tc main_arg6) = _
  after_results_simp
  exact W2_arg6 m ρ c

set_option maxHeartbeats 1000000 in
theorem W3_v59 (c : Dev nD) : W3 (F := Ideal) m ρ c (Proc.devRef .tc main_v59) = biasRow128 (m ((c : Thread nD τ).loc main_arg5)) := by
  show StableHlo.after hostOps1 (W2 m ρ c) (Proc.devRef .tc main_v59) = _
  after_results_simp
  rw [W2_arg5]
  rfl

set_option maxHeartbeats 1000000 in
theorem W3_v60 (c : Dev nD) : W3 (F := Ideal) m ρ c (Proc.devRef .tc main_v60) = biasRow128 (m ((c : Thread nD τ).loc main_arg7)) := by
  show StableHlo.after hostOps1 (W2 m ρ c) (Proc.devRef .tc main_v60) = _
  after_results_simp
  rw [W2_arg7]
  rfl

end Cert.KernelIdeal.HostChain

end
-- ==== Proof.KernelRun.lean ====
/-
  The kernel program's run with its two results named.

  @main is four segments in a row: a stretch of host operations, the first pallas_call, a second stretch of host
  operations, the second pallas_call. The generated frame runs exactly these segments from the launch memory and reads,
  at the end, every unscoped buffer of the TensorCore at the last boundary's contents `W4`; it keeps of that only the
  argument arrays. Here the same run is posted with the two result buffers read as well: each ends at `W4` of its own
  reference, which is what the second pallas_call's write-backs leave there.
-/
import proofs.«159679_j13511967113592_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are determined by its conclusion; matching it needs plain definitions
-- unfolded inside a type
set_option backward.isDefEq.respectTransparency.types false in
/-- Every weakly fair execution of @main terminates, nothing faulting, with each result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v61_0) = W4 m ρ c (Proc.devRef .tc main_v61_0)
      ∧ r.2.mem ((c.tc : Thread nD τ).loc main_v61_1) = W4 m ρ c (Proc.devRef .tc main_v61_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v61_0 (by decide)),
       h c _ (mem_uc main_v61_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunNamed

end
-- ==== Proof.KernelValue.lean ====
/-
  The kernel program's run with each result as a whole-array function of the arguments.

  Before the first pallas_call the host code aggregates the node features over the edges; the call leaves the hidden
  features z in its result array. Between the calls the host code aggregates z the same way (reading z, the source and
  target numbers and the edge-weight column, all of which the first call left as it found them); the second call leaves
  mu and logvar. Chaining: each result buffer ends at the second layer of (aggregated z, z, node-weight column,
  its weights, its bias row), with z the first layer of (aggregated features, features, node-weight column, first
  weights, first bias row).
-/
import proofs.«159679_j13511967113592_2_alg».proof.Proof.HostChain
import proofs.«159679_j13511967113592_2_alg».proof.Proof.KSpec
import proofs.«159679_j13511967113592_2_alg».proof.Proof.KernelRun

set_option maxRecDepth 16384

noncomputable section

namespace Cert.KernelIdeal.KValue

open Cert.KernelIdeal Cert.KernelIdeal.Gen Idealize.ShloMosaic Idealize.ShloMosaic.TcCoe Idealize.ShloMosaic.StableHlo
open Idealize.ShloMosaic.ValueIdx Idealize.SL.Sem
open Cert.KernelIdeal.HostChain Cert.KernelIdeal.Blocks Cert.KSpec

variable (m : (ℓ : Loc nD τ sig) → Buf (Elt Ideal) ℓ) (ρ : Dev nD → PrngReg)

set_option maxHeartbeats 1000000 in
/-- The aggregated node features the first call is entered with. -/
theorem W1_v42 (c : Dev nD) : W1 (F := Ideal) m ρ c (Proc.devRef .tc main_v42)
    = Cert.Agg.aggOf (m ((c : Thread nD τ).loc main_arg1)) (m ((c : Thread nD τ).loc main_arg0)) := by
  show StableHlo.after hostOps0 (W0 m ρ c) (Proc.devRef .tc main_v42) = _
  after_results_simp
  rfl

set_option maxHeartbeats 1000000 in
/-- The first call's result: z. -/
theorem W2_v44 (c : Dev nD) : W2 (F := Ideal) m ρ c (Proc.devRef .tc main_v44)
    = zArr (m ((c : Thread nD τ).loc main_arg1)) (m ((c : Thread nD τ).loc main_arg0)) (m ((c : Thread nD τ).loc main_arg2)) (m ((c : Thread nD τ).loc main_arg3)) := by
  refine (W2_arr m ρ c 5).trans ((final0_5 (V1 m ρ) c).trans ?_)
  show layer1Arr (W1 m ρ c (Proc.devRef .tc main_v42)) (W1 m ρ c (Proc.devRef .tc main_arg0))
    (W1 m ρ c (Proc.devRef .tc main_v12)) (W1 m ρ c (Proc.devRef .tc main_arg2)) (W1 m ρ c (Proc.devRef .tc main_v43)) = _
  rw [W1_v42, W1_arg0, W1_v12, W1_arg2, W1_v43]
  rfl

set_option maxHeartbeats 1000000 in
/-- z as the second call finds it. -/
theorem W3_v44 (c : Dev nD) : W3 (F := Ideal) m ρ c (Proc.devRef .tc main_v44)
    = zArr (m ((c : Thread nD τ).loc main_arg1)) (m ((c : Thread nD τ).loc main_arg0)) (m ((c : Thread nD τ).loc main_arg2)) (m ((c : Thread nD τ).loc main_arg3)) := by
  show StableHlo.after hostOps1 (W2 m ρ c) (Proc.devRef .tc main_v44) = _
  after_results_simp
  exact W2_v44 m ρ c

set_option maxHeartbeats 1000000 in
/-- The aggregated z the second call is entered with. -/
theorem W3_v58 (c : Dev nD) : W3 (F := Ideal) m ρ c (Proc.devRef .tc main_v58)
    = Cert.Agg.aggOf (m ((c : Thread nD τ).loc main_arg1)) (zArr (m ((c : Thread nD τ).loc main_arg1)) (m ((c : Thread nD τ).loc main_arg0)) (m ((c : Thread nD τ).loc main_arg2)) (m ((c : Thread nD τ).loc main_arg3))) := by
  show StableHlo.after hostOps1 (W2 m ρ c) (Proc.devRef .tc main_v58) = _
  after_results_simp
  rw [W2_v3, W2_v1, W2_v28, W2_v44]
  rfl

set_option maxHeartbeats 1000000 in
/-- The first result buffer (mu) at the last boundary. -/
theorem W4_v61_0 (c : Dev nD) : W4 (F := Ideal) m ρ c (Proc.devRef .tc main_v61_0)
    = outArr (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 7).trans ((final1_7 (V3 m ρ) c).trans ?_)
  show layer2Arr (W3 m ρ c (Proc.devRef .tc main_v58)) (W3 m ρ c (Proc.devRef .tc main_v44))
    (W3 m ρ c (Proc.devRef .tc main_v12)) (W3 m ρ c (Proc.devRef .tc main_arg4)) (W3 m ρ c (Proc.devRef .tc main_v59)) = _
  rw [W3_v58, W3_v44, W3_v12, W3_arg4, W3_v59]
  rfl

set_option maxHeartbeats 1000000 in
/-- The second result buffer (logvar) at the last boundary. -/
theorem W4_v61_1 (c : Dev nD) : W4 (F := Ideal) m ρ c (Proc.devRef .tc main_v61_1)
    = outArr (m ((c : Thread nD τ).loc main_arg1)) (m ((c : Thread nD τ).loc main_arg0)) (m ((c : Thread nD τ).loc main_arg2)) (m ((c : Thread nD τ).loc main_arg3)) (m ((c : Thread nD τ).loc main_arg6)) (m ((c : Thread nD τ).loc main_arg7)) := by
  refine (W4_arr m ρ c 8).trans ((final1_8 (V3 m ρ) c).trans ?_)
  show layer2Arr (W3 m ρ c (Proc.devRef .tc main_v58)) (W3 m ρ c (Proc.devRef .tc main_v44))
    (W3 m ρ c (Proc.devRef .tc main_v12)) (W3 m ρ c (Proc.devRef .tc main_arg6)) (W3 m ρ c (Proc.devRef .tc main_v60)) = _
  rw [W3_v58, W3_v44, W3_v12, W3_arg6, W3_v60]
  rfl

/-- THE KERNEL PROGRAM'S RUN, READ: every weakly fair execution terminates, nothing faulting, with mu and logvar at
    their whole-array functions of the argument arrays and the argument arrays as launched. -/
theorem run : θ_run (defs (F := Ideal)) (onTc (τ := τ) (main (F := Ideal))) ⟨m, fun _ => 0, ρ⟩ (fun r => ∀ c : Dev nD,
      r.2.mem ((c.tc : Thread nD τ).loc main_v61_0)
        = outArr (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v61_1)
        = outArr (m ((c : Thread nD τ).loc main_arg1)) (m ((c : Thread nD τ).loc main_arg0)) (m ((c : Thread nD τ).loc main_arg2)) (m ((c : Thread nD τ).loc main_arg3)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun r h c => ⟨(h c).1.trans (W4_v61_0 m ρ c), (h c).2.1.trans (W4_v61_1 m ρ c), (h c).2.2⟩)
    (Cert.KernelIdeal.RunNamed.run_named m ρ)

end Cert.KernelIdeal.KValue

end
-- ==== Proof.lean ====
/-
  A two-layer graph convolution producing the mean and the log-variance of a graph auto-encoder's latent code, over
  50000 nodes, 800000 edges, features 256 → 256 → 128 and 128: the kernel program against its jnp reference.

  A layer sends node features X to  out n = Σ_{e → n} h (row e) · w e + h n · d n + b  with h = X · W, where e → n
  ranges over the edges whose target is n, row e is the edge's source, w e = dinv (row e) · dinv (target e) is the
  edge's weight, d n = dinv n² and dinv n = (1 + number of edges reaching n)^(-1/2). The reference computes exactly
  this, three times: z = max (layer X, 0), then mu and logvar as layers of z with two pairs of weights and biases.
  The kernel program moves the dense product to the end: it first aggregates,  s n = Σ_{e → n} X (row e) · w e + X n · d n,
  on the host (a gather of rows, a product with the edge-weight column, a scatter-add), and each of its two
  pallas_calls then computes s · W + b over 25 blocks of 2000 node rows — the first with max (·, 0), the second twice,
  sharing s. Changes of float format are the identity at the exact values.

  The two arrangements agree because the product with W distributes over the edge sum and the two finite sums
  commute. On the extended reals that needs every entry to be a real: the float inputs are real by the precondition,
  a node's weight is the reciprocal square root of a number ≥ 1, and z is the larger of a real and 0. The edge
  quantities (which edges reach a node, which row an edge reads, the weights) are computed from the integer edge list
  by the same operations in both programs, whatever the edge list holds, so no range condition on it is needed.

  The modules: Algebra (the law), Graph and Reals (the edge quantities and their realness), RefRead (the reference's
  layers at an entry), Payload and Blocks (the kernel bodies at an entry; each result array as one function of whole
  arrays), Layouts, Agg, HostChain, KSpec, KernelRun, KernelValue (the host code around the calls and the kernel
  program's run with its results named), Bridge (the two arrangements, entry by entry), Assembly (the five claims).
-/
import proofs.«159679_j13511967113592_2_alg».proof.Defs
import proofs.«159679_j13511967113592_2_alg».proof.Proof.Gen.Kernel
import proofs.«159679_j13511967113592_2_alg».proof.Proof.Gen.Kernel.Skeleton
import proofs.«159679_j13511967113592_2_alg».proof.Proof.Gen.Kernel.Launch
import proofs.«159679_j13511967113592_2_alg».proof.Proof.Gen.Kernel.Points
import proofs.«159679_j13511967113592_2_alg».proof.Proof.Gen.Kernel.Frame
import proofs.«159679_j13511967113592_2_alg».proof.Proof.Gen.KernelIdeal
import proofs.«159679_j13511967113592_2_alg».proof.Proof.Gen.KernelIdeal.Skeleton
import proofs.«159679_j13511967113592_2_alg».proof.Proof.Gen.KernelIdeal.Launch
import proofs.«159679_j13511967113592_2_alg».proof.Proof.Gen.KernelIdeal.Points
import proofs.«159679_j13511967113592_2_alg».proof.Proof.Gen.KernelIdeal.Frame
import proofs.«159679_j13511967113592_2_alg».proof.Proof.Gen.ReferenceIdeal
import proofs.«159679_j13511967113592_2_alg».proof.Proof.Gen.Pre_finite_inputs
import proofs.«159679_j13511967113592_2_alg».proof.Proof.Gen.ReferenceIdeal.Run
import proofs.«159679_j13511967113592_2_alg».proof.Proof.Gen.ReferenceIdeal.Read
import proofs.«159679_j13511967113592_2_alg».proof.Proof.Assembly
import proofs.«159679_j13511967113592_2_alg».proof.Proof.KernelValue
import Idealize.ShloMosaic.Adequacy
import Idealize.ShloMosaic.Init

noncomputable section

namespace Cert.Proof

open Idealize.ShloMosaic Idealize.SL.Sem Cert.Kernel

/-- The three programs run and keep their arguments; the idealization rewrote nothing; and the idealized kernel
    program and the idealized reference, from memories agreeing on the arguments, end with equal results. -/
theorem claim : Cert.Claim := ⟨Cert.Kernel.Gen.facts, Cert.KernelIdeal.Gen.facts, Cert.ReferenceIdeal.Gen.facts, Cert.Pre_finite_inputs.Gen.facts,
  Cert.Assembly.frame_k, Cert.Assembly.frame_ki, Cert.Assembly.frame_ri, Cert.Assembly.preserves,
  Cert.Assembly.algebraic_of_run (fun m ρ => Cert.KernelIdeal.KValue.run m ρ)⟩

end Cert.Proof

end
